-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x2048x768 .f32) (main_arg1 : FVec F S2304x768 .f32) (main_arg2 : FVec F S768x768 .f32) (main_arg3 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S1x2048x768 : Shape := ⟨3, ![1, 2048, 768]⟩
abbrev S1x256x768 : Shape := ⟨3, ![1, 256, 768]⟩
abbrev S2048x768 : Shape := ⟨2, ![2048, 768]⟩
abbrev S256x768 : Shape := ⟨2, ![256, 768]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x768 : Shape := ⟨2, ![1, 768]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S2304x768, .bf16⟩
  | .hbm, ⟨5, _⟩ => ⟨S768x768, .bf16⟩
  | .hbm, ⟨6, _⟩ => ⟨S4x2048x768, .f32⟩
  | .local _ .vmem, ⟨0, _⟩ => ⟨S1x2048x768, .f32⟩
  | .local _ .vmem, ⟨1, _⟩ => ⟨S1x2048x768, .f32⟩
  | .local _ .vmem, ⟨2, _⟩ => ⟨S2304x768, .bf16⟩
  | .local _ .vmem, ⟨3, _⟩ => ⟨S768x768, .bf16⟩
  | .local _ .vmem, ⟨4, _⟩ => ⟨S768, .f32⟩
  | .local _ .vmem, ⟨5, _⟩ => ⟨S1x256x768, .f32⟩
  | .local _ .vmem, ⟨6, _⟩ => ⟨S1x256x768, .f32⟩
  | .local _ .vmem, ⟨7, _⟩ => ⟨S2048x768, .bf16⟩
  | .local _ .vmem, ⟨8, _⟩ => ⟨S2048x768, .bf16⟩
  | .local _ .vmem, ⟨9, _⟩ => ⟨S2048x768, .bf16⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  slices_S2304x768_o0_0_S768x768 : S2304x768.Slices ![0, 0] S768x768
  slices_S2304x768_o768_0_S768x768 : S2304x768.Slices ![768, 0] S768x768
  slices_S2304x768_o1536_0_S768x768 : S2304x768.Slices ![1536, 0] S768x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  packedbf16_S2048x768_S2048x768_0_0 : (Rect.unit (s := S2048x768) ![0, 0] S2048x768.size inb_S2048x768_S2048x768_0_0).PackedRows (EltTy.packing .bf16)
  h_S256x768 : 0 < S256x768.numel
  slices_S256x768_o0_0_S256x64 : S256x768.Slices ![0, 0] S256x64
  slices_S2048x768_o0_0_S2048x64 : S2048x768.Slices ![0, 0] S2048x64
  reduces_S256x2048_S256 : S256x2048.Reduces [1] S256
  shapeCasts_S256_S256x1 : S256.ShapeCasts S256x1
  broadcasts_S256x1_S256x2048 : S256x1.Broadcasts S256x2048
  slices_S256x768_o0_64_S256x64 : S256x768.Slices ![0, 64] S256x64
  slices_S2048x768_o0_64_S2048x64 : S2048x768.Slices ![0, 64] S2048x64
  slices_S256x768_o0_128_S256x64 : S256x768.Slices ![0, 128] S256x64
  slices_S2048x768_o0_128_S2048x64 : S2048x768.Slices ![0, 128] S2048x64
  slices_S256x768_o0_192_S256x64 : S256x768.Slices ![0, 192] S256x64
  slices_S2048x768_o0_192_S2048x64 : S2048x768.Slices ![0, 192] S2048x64
  slices_S256x768_o0_256_S256x64 : S256x768.Slices ![0, 256] S256x64
  slices_S2048x768_o0_256_S2048x64 : S2048x768.Slices ![0, 256] S2048x64
  slices_S256x768_o0_320_S256x64 : S256x768.Slices ![0, 320] S256x64
  slices_S2048x768_o0_320_S2048x64 : S2048x768.Slices ![0, 320] S2048x64
  slices_S256x768_o0_384_S256x64 : S256x768.Slices ![0, 384] S256x64
  slices_S2048x768_o0_384_S2048x64 : S2048x768.Slices ![0, 384] S2048x64
  slices_S256x768_o0_448_S256x64 : S256x768.Slices ![0, 448] S256x64
  slices_S2048x768_o0_448_S2048x64 : S2048x768.Slices ![0, 448] S2048x64
  slices_S256x768_o0_512_S256x64 : S256x768.Slices ![0, 512] S256x64
  slices_S2048x768_o0_512_S2048x64 : S2048x768.Slices ![0, 512] S2048x64
  slices_S256x768_o0_576_S256x64 : S256x768.Slices ![0, 576] S256x64
  slices_S2048x768_o0_576_S2048x64 : S2048x768.Slices ![0, 576] S2048x64
  slices_S256x768_o0_640_S256x64 : S256x768.Slices ![0, 640] S256x64
  slices_S2048x768_o0_640_S2048x64 : S2048x768.Slices ![0, 640] S2048x64
  slices_S256x768_o0_704_S256x64 : S256x768.Slices ![0, 704] S256x64
  slices_S2048x768_o0_704_S2048x64 : S2048x768.Slices ![0, 704] S2048x64
  concatenates_S256x64_S256x64_S256x64_S256x64_S256x64_S256x64_S256x64_S256x64_S256x64_S256x64_S256x64_S256x64_S256x768_d1 : Shape.Concatenates [S256x64, S256x64, S256x64, S256x64, S256x64, S256x64, S256x64, S256x64, S256x64, S256x64, S256x64, S256x64] S256x768 1
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S256x768 : S1x768.Broadcasts S256x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  shapeCasts_S256x768_S1x256x768 : S256x768.ShapeCasts S1x256x768
  dot_S2048x768_S768x768_S2048x768_1_1_0_0_n_n_wf : DotDims.WF S2048x768 S768x768 S2048x768 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x768_S768x768_S256x768_1_1_0_0_n_n_wf : DotDims.WF S256x768 S768x768 S256x768 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x768.size a ≤ S2048x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S4x2048x768.size a
  hwx0_0 : ∀ i : grid0.Coords, EltTy.bits .f32 = 32 ∨ (Rect.block (s := S4x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x768.size a ≤ S4x2048x768.size a
  hwx0_4 : ∀ i : grid0.Coords, EltTy.bits .f32 = 32 ∨ (Rect.block (s := S4x2048x768) S1x256x768.size (cc0_transform_4 i) (hinb0_4 i)).WholeWords (EltTy.packing .f32)

variable [Facts₀]

def dot_S2048x768_S768x768_S2048x768_1_1_0_0_n_n : DotDims S2048x768 S768x768 S2048x768 where
  lhsContracting := [1]
  rhsContracting := [1]
  lhsNonContracting := [0]
  rhsNonContracting := [0]
  lhsBatch := []
  rhsBatch := []
  wf := dot_S2048x768_S768x768_S2048x768_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x768_S768x768_S256x768_1_1_0_0_n_n : DotDims S256x768 S768x768 S256x768 where
  lhsContracting := [1]
  rhsContracting := [1]
  lhsNonContracting := [0]
  rhsNonContracting := [0]
  lhsBatch := []
  rhsBatch := []
  wf := dot_S256x768_S768x768_S256x768_1_1_0_0_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S2304x768 : Shape := ⟨2, ![2304, 768]⟩
abbrev S768x768 : Shape := ⟨2, ![768, 768]⟩
abbrev S768 : Shape := ⟨1, ![768]⟩
abbrev S4x2048x2304 : Shape := ⟨3, ![4, 2048, 2304]⟩
abbrev S4x2048x3x12x64 : Shape := ⟨5, ![4, 2048, 3, 12, 64]⟩
abbrev S3x4x12x2048x64 : Shape := ⟨5, ![3, 4, 12, 2048, 64]⟩
abbrev S1x4x12x2048x64 : Shape := ⟨5, ![1, 4, 12, 2048, 64]⟩
abbrev S4x12x2048x64 : Shape := ⟨4, ![4, 12, 2048, 64]⟩
abbrev S_ : Shape := ⟨0, ![]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S4x2048x2304, .f32⟩
  | .hbm, ⟨5, _⟩ => ⟨S4x2048x3x12x64, .f32⟩
  | .hbm, ⟨6, _⟩ => ⟨S3x4x12x2048x64, .f32⟩
  | .hbm, ⟨7, _⟩ => ⟨S1x4x12x2048x64, .f32⟩
  | .hbm, ⟨8, _⟩ => ⟨S4x12x2048x64, .f32⟩
  | .hbm, ⟨9, _⟩ => ⟨S1x4x12x2048x64, .f32⟩
  | .hbm, ⟨10, _⟩ => ⟨S4x12x2048x64, .f32⟩
  | .hbm, ⟨11, _⟩ => ⟨S1x4x12x2048x64, .f32⟩
  | .hbm, ⟨12, _⟩ => ⟨S4x12x2048x64, .f32⟩
  | .hbm, ⟨13, _⟩ => ⟨S_, .f32⟩
  | .hbm, ⟨14, _⟩ => ⟨S4x12x2048x64, .f32⟩
  | .hbm, ⟨15, _⟩ => ⟨S4x12x2048x64, .f32⟩
  | .hbm, ⟨16, _⟩ => ⟨S4x12x2048x2048, .f32⟩
  | .hbm, ⟨17, _⟩ => ⟨S_, .f32⟩
  | .hbm, ⟨18, _⟩ => ⟨S4x12x2048, .f32⟩
  | .hbm, ⟨19, _⟩ => ⟨S_, .f32⟩
  | .hbm, ⟨20, _⟩ => ⟨S4x12x2048, .f32⟩
  | .hbm, ⟨21, _⟩ => ⟨S4x12x2048, .f32⟩
  | .hbm, ⟨22, _⟩ => ⟨S4x12x2048x1, .f32⟩
  | .hbm, ⟨23, _⟩ => ⟨S4x12x2048x2048, .f32⟩
  | .hbm, ⟨24, _⟩ => ⟨S4x12x2048x2048, .f32⟩
  | .hbm, ⟨25, _⟩ => ⟨S4x12x2048x2048, .f32⟩
  | .hbm, ⟨26, _⟩ => ⟨S_, .f32⟩
  | .hbm, ⟨27, _⟩ => ⟨S4x12x2048, .f32⟩
  | .hbm, ⟨28, _⟩ => ⟨S4x12x2048x1, .f32⟩
  | .hbm, ⟨29, _⟩ => ⟨S4x12x2048x2048, .f32⟩
  | .hbm, ⟨30, _⟩ => ⟨S4x12x2048x2048, .f32⟩
  | .hbm, ⟨31, _⟩ => ⟨S4x12x2048x64, .f32⟩
  | .hbm, ⟨32, _⟩ => ⟨S4x2048x12x64, .f32⟩
  | .hbm, ⟨33, _⟩ => ⟨S4x2048x768, .f32⟩
  | .hbm, ⟨34, _⟩ => ⟨S4x2048x768, .f32⟩
  | .hbm, ⟨35, _⟩ => ⟨S1x1x768, .f32⟩
  | .hbm, ⟨36, _⟩ => ⟨S4x2048x768, .f32⟩
  | .hbm, ⟨37, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S4x2048x2304_S4x2048x3x12x64 : S4x2048x2304.ShapeCasts S4x2048x3x12x64
  transposes_S4x2048x3x12x64_S3x4x12x2048x64_2_0_3_1_4 : S4x2048x3x12x64.Transposes [2, 0, 3, 1, 4] S3x4x12x2048x64
  slices_S3x4x12x2048x64_S1x4x12x2048x64_0_0_0_0_0 : S3x4x12x2048x64.Slices ![0, 0, 0, 0, 0] S1x4x12x2048x64
  shapeCasts_S1x4x12x2048x64_S4x12x2048x64 : S1x4x12x2048x64.ShapeCasts S4x12x2048x64
  slices_S3x4x12x2048x64_S1x4x12x2048x64_1_0_0_0_0 : S3x4x12x2048x64.Slices ![1, 0, 0, 0, 0] S1x4x12x2048x64
  slices_S3x4x12x2048x64_S1x4x12x2048x64_2_0_0_0_0 : S3x4x12x2048x64.Slices ![2, 0, 0, 0, 0] S1x4x12x2048x64
  bcast_S_S4x12x2048x64 : S_.BroadcastsInDim S4x12x2048x64 (![] : Fin 0 → Fin S4x12x2048x64.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.KPieces.lean ====
/-
  What one grid point leaves in its output block and in the three carried buffers, as pure terms of what it reads.

  A grid point (b, t) works on 256 query rows. At t = 0 it first fills three buffers with the queries, keys and values
  of all 2048 rows of batch b (three products of the batch's rows with the three 768-row blocks of the stacked weight);
  at every t it then reads rows 256 t … 256 t + 255 of the query buffer and the whole key and value buffers, and writes
  one 1 × 256 × 768 block: for each of the 12 heads the softmax-weighted sum of the value rows, the 12 results side by
  side, projected by the output weight, plus the bias. So the block is ONE function (bodyOut) of the three buffers'
  contents, the output weight and the bias, whether the buffers were just filled (t = 0) or are as an earlier point
  left them (t > 0).
-/
import proofs.«132277_j6124623364158_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Attn.K

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The 256 query rows grid point `i` works on: rows `256 · i₁ …` of the query buffer's contents. -/
def qrows (i : grid0.Coords) (Q : Vec F S2048x768 .bf16) : Vec F S256x768 .bf16 :=
  View.ld Q (Rect.unit (s := S2048x768) (k0_off1 i) S256x768.size (k0_off1_inb i))

/-- The output block of grid point `i` from the query, key and value buffers' contents, the output weight and the bias. -/
def bodyOut (i : grid0.Coords) (Q K V : Vec F S2048x768 .bf16) (x2 : Vec F S768x768 .bf16) (x3 : Vec F S768 .f32) :
    FVec F S1x256x768 .f32 :=
  k0_pay1 (k0_pay7 (qrows i Q) K V) (k0_pay10 (k0_pay8 V) (k0_pay9 (qrows i Q) K)) (k0_pay11 (qrows i Q) K V)
    (k0_pay12 (qrows i Q) K V) (k0_pay16 (k0_pay13 K) (k0_pay14 V) (k0_pay15 (qrows i Q))) (k0_pay17 (qrows i Q) K V)
    (k0_pay20 (k0_pay18 V) (k0_pay19 (qrows i Q) K)) (k0_pay21 (qrows i Q) K V) (k0_pay22 (qrows i Q) K V)
    (k0_pay26 (k0_pay23 K) (k0_pay24 V) (k0_pay25 (qrows i Q))) (k0_pay27 (qrows i Q) K V) (k0_pay28 V)
    (k0_pay29 (qrows i Q) K) x2 x3

/-- At the first point of a batch the query buffer ends holding the batch's rows times the first weight block. -/
theorem scratchQ_A (c : Dev nD) (i : grid0.Coords) (arg2 : Memref sig .tc .vmem S1x2048x768 .f32) (harg2 : arg2.IsWhole) (arg3 : Memref sig .tc .vmem S2304x768 .bf16) (harg3 : arg3.IsWhole) (arg4 : Memref sig .tc .vmem S768x768 .bf16) (harg4 : arg4.IsWhole) (arg5 : Memref sig .tc .vmem S768 .f32) (harg5 : arg5.IsWhole) (arg6 : Memref sig .tc .vmem S1x256x768 .f32) (harg6 : arg6.IsWhole) (arg7 : Memref sig .tc .vmem S2048x768 .bf16) (harg7 : arg7.IsWhole) (arg8 : Memref sig .tc .vmem S2048x768 .bf16) (harg8 : arg8.IsWhole) (arg9 : Memref sig .tc .vmem S2048x768 .bf16) (harg9 : arg9.IsWhole) (hc0 : cond0_0 i) (x0 : Vec F S1x2048x768 .f32) (x1 : Vec F S2304x768 .bf16) (x2 : Vec F S768x768 .bf16) (x3 : Vec F S768 .f32) :
    sout0_A_0 c i arg2 harg2 arg3 harg3 arg4 harg4 arg5 harg5 arg6 harg6 arg7 harg7 arg8 harg8 arg9 harg9 hc0 x0 x1 x2 x3 = k0_pay4 x0 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, View.ld_unit_zero (S := S1x2048x768) hz3,
    View.ld_unit_zero (S := S2304x768) hz2]

/-- … the key buffer the rows times the second weight block, -/
theorem scratchK_A (c : Dev nD) (i : grid0.Coords) (arg2 : Memref sig .tc .vmem S1x2048x768 .f32) (harg2 : arg2.IsWhole) (arg3 : Memref sig .tc .vmem S2304x768 .bf16) (harg3 : arg3.IsWhole) (arg4 : Memref sig .tc .vmem S768x768 .bf16) (harg4 : arg4.IsWhole) (arg5 : Memref sig .tc .vmem S768 .f32) (harg5 : arg5.IsWhole) (arg6 : Memref sig .tc .vmem S1x256x768 .f32) (harg6 : arg6.IsWhole) (arg7 : Memref sig .tc .vmem S2048x768 .bf16) (harg7 : arg7.IsWhole) (arg8 : Memref sig .tc .vmem S2048x768 .bf16) (harg8 : arg8.IsWhole) (arg9 : Memref sig .tc .vmem S2048x768 .bf16) (harg9 : arg9.IsWhole) (hc0 : cond0_0 i) (x0 : Vec F S1x2048x768 .f32) (x1 : Vec F S2304x768 .bf16) (x2 : Vec F S768x768 .bf16) (x3 : Vec F S768 .f32) :
    sout0_A_1 c i arg2 harg2 arg3 harg3 arg4 harg4 arg5 harg5 arg6 harg6 arg7 harg7 arg8 harg8 arg9 harg9 hc0 x0 x1 x2 x3 = k0_pay5 x0 x1 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, View.ld_unit_zero (S := S1x2048x768) hz3,
    View.ld_unit_zero (S := S2304x768) hz2]

/-- … and the value buffer the rows times the third. -/
theorem scratchV_A (c : Dev nD) (i : grid0.Coords) (arg2 : Memref sig .tc .vmem S1x2048x768 .f32) (harg2 : arg2.IsWhole) (arg3 : Memref sig .tc .vmem S2304x768 .bf16) (harg3 : arg3.IsWhole) (arg4 : Memref sig .tc .vmem S768x768 .bf16) (harg4 : arg4.IsWhole) (arg5 : Memref sig .tc .vmem S768 .f32) (harg5 : arg5.IsWhole) (arg6 : Memref sig .tc .vmem S1x256x768 .f32) (harg6 : arg6.IsWhole) (arg7 : Memref sig .tc .vmem S2048x768 .bf16) (harg7 : arg7.IsWhole) (arg8 : Memref sig .tc .vmem S2048x768 .bf16) (harg8 : arg8.IsWhole) (arg9 : Memref sig .tc .vmem S2048x768 .bf16) (harg9 : arg9.IsWhole) (hc0 : cond0_0 i) (x0 : Vec F S1x2048x768 .f32) (x1 : Vec F S2304x768 .bf16) (x2 : Vec F S768x768 .bf16) (x3 : Vec F S768 .f32) :
    sout0_A_2 c i arg2 harg2 arg3 harg3 arg4 harg4 arg5 harg5 arg6 harg6 arg7 harg7 arg8 harg8 arg9 harg9 hc0 x0 x1 x2 x3 = k0_pay6 x0 x1 := by
  unfold sout0_A_2
  rw [View.read_writes_eq_canon _ _ _ (scover0_A_2 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, View.ld_unit_zero (S := S1x2048x768) hz3,
    View.ld_unit_zero (S := S2304x768) hz2]

/-- At a later point of a batch the output block is `bodyOut` of what the buffers held when the point began. -/
theorem out_B (c : Dev nD) (i : grid0.Coords) (arg2 : Memref sig .tc .vmem S1x2048x768 .f32) (harg2 : arg2.IsWhole) (arg3 : Memref sig .tc .vmem S2304x768 .bf16) (harg3 : arg3.IsWhole) (arg4 : Memref sig .tc .vmem S768x768 .bf16) (harg4 : arg4.IsWhole) (arg5 : Memref sig .tc .vmem S768 .f32) (harg5 : arg5.IsWhole) (arg6 : Memref sig .tc .vmem S1x256x768 .f32) (harg6 : arg6.IsWhole) (arg7 : Memref sig .tc .vmem S2048x768 .bf16) (harg7 : arg7.IsWhole) (arg8 : Memref sig .tc .vmem S2048x768 .bf16) (harg8 : arg8.IsWhole) (arg9 : Memref sig .tc .vmem S2048x768 .bf16) (harg9 : arg9.IsWhole) (hc0 : ¬cond0_0 i) (x0 : Vec F S1x2048x768 .f32) (x1 : Vec F S2304x768 .bf16) (x2 : Vec F S768x768 .bf16) (x3 : Vec F S768 .f32)
    (xs0 xs1 xs2 : Vec F S2048x768 .bf16) :
    out0_B_4 c i arg2 harg2 arg3 harg3 arg4 harg4 arg5 harg5 arg6 harg6 arg7 harg7 arg8 harg8 arg9 harg9 hc0 x0 x1 x2 x3 xs0 xs1 xs2 = bodyOut i xs0 xs1 xs2 x2 x3 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1 xs2)]
  unfold kernelRun0_B
  dsimp only
  sl_unfold_words
  rw [View.canon_unit_zero hz3]
  simp only [View.readAt_eq_ld, harg7.read_unread, harg8.read_unread, harg9.read_unread, harg4.read_unread,
    harg5.read_unread, View.ld_unit_zero (S := S2048x768) hz2, View.ld_unit_zero (S := S768x768) hz2,
    View.ld_unit_zero (S := S768) hz1]
  rfl

/-- At the first point of a batch it is `bodyOut` of what the point itself has just put in the buffers. -/
theorem out_A (c : Dev nD) (i : grid0.Coords) (arg2 : Memref sig .tc .vmem S1x2048x768 .f32) (harg2 : arg2.IsWhole) (arg3 : Memref sig .tc .vmem S2304x768 .bf16) (harg3 : arg3.IsWhole) (arg4 : Memref sig .tc .vmem S768x768 .bf16) (harg4 : arg4.IsWhole) (arg5 : Memref sig .tc .vmem S768 .f32) (harg5 : arg5.IsWhole) (arg6 : Memref sig .tc .vmem S1x256x768 .f32) (harg6 : arg6.IsWhole) (arg7 : Memref sig .tc .vmem S2048x768 .bf16) (harg7 : arg7.IsWhole) (arg8 : Memref sig .tc .vmem S2048x768 .bf16) (harg8 : arg8.IsWhole) (arg9 : Memref sig .tc .vmem S2048x768 .bf16) (harg9 : arg9.IsWhole) (hc0 : cond0_0 i) (x0 : Vec F S1x2048x768 .f32) (x1 : Vec F S2304x768 .bf16) (x2 : Vec F S768x768 .bf16) (x3 : Vec F S768 .f32) :
    out0_A_4 c i arg2 harg2 arg3 harg3 arg4 harg4 arg5 harg5 arg6 harg6 arg7 harg7 arg8 harg8 arg9 harg9 hc0 x0 x1 x2 x3 = bodyOut i (k0_pay4 x0 x1) (k0_pay5 x0 x1) (k0_pay6 x0 x1) x2 x3 := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readAt_writes_junk_eq_canon, View.canon_unit_zero (S := S2048x768) hz2, View.readCov_unit_zero (S := S2048x768) _ hz2,
    View.readAt_eq_ld, harg2.read_unread, harg3.read_unread, harg4.read_unread,
    harg5.read_unread, View.ld_unit_zero (S := S1x2048x768) hz3, View.ld_unit_zero (S := S2304x768) hz2,
    View.ld_unit_zero (S := S768x768) hz2, View.ld_unit_zero (S := S768) hz1]
  rfl

end Attn.K

end
-- ==== Proof.KScratch.lean ====
/-
  What the three carried buffers hold after every grid point, and so what every point's output block is.

  The 32 grid points are run in order; point n belongs to batch n / 8, and the batch's first point is 8 (n / 8). That
  point fills the buffers from the batch's rows and the stacked weight; the seven points after it leave them alone. So
  after ANY point n the buffers hold the queries, keys and values computed from the blocks the batch's first point
  read (by induction on n), and point n's output block is `bodyOut` of exactly those.
-/
import proofs.«132277_j6124623364158_2_alg».proof.Proof.KPieces

set_option maxRecDepth 16384

noncomputable section

open Idealize.ShloMosaic Idealize.ShloMosaic.TcCoe Idealize.SL.Sem

namespace Attn.K

open Cert.KernelIdeal Cert.KernelIdeal.Gen

variable {F : FTy → Type} [FloatOps F]
variable (m : (ℓ : Loc nD τ sig) → Buf (Elt F) ℓ) (c : Dev nD)

theorem N32 : cfg0.N = 32 := N_0

/-- The first point of the batch point `n` belongs to. -/
def first (n : ℕ) (h : n < cfg0.N) : Fin cfg0.N := ⟨8 * (n / 8), by have := N32; omega⟩

theorem first_of_mod {n : ℕ} (h : n < cfg0.N) (h0 : n % 8 = 0) : first n h = ⟨n, h⟩ :=
  Fin.ext (by show 8 * (n / 8) = n; omega)

theorem first_succ {n : ℕ} (h : n + 1 < cfg0.N) (h0 : ¬(n + 1) % 8 = 0) :
    first n (Nat.lt_of_succ_lt h) = first (n + 1) h :=
  Fin.ext (by show 8 * (n / 8) = 8 * ((n + 1) / 8); omega)

/-- The queries, keys and values of the batch of point `n`: the three products of the batch's rows (the input block the
    batch's first point reads) with the three blocks of the stacked weight. -/
def Qof (n : ℕ) (h : n < cfg0.N) : Vec F S2048x768 .bf16 := k0_pay4 (iblk m c 0 (first n h)) (iblk m c 1 (first n h))
def Kof (n : ℕ) (h : n < cfg0.N) : Vec F S2048x768 .bf16 := k0_pay5 (iblk m c 0 (first n h)) (iblk m c 1 (first n h))
def Vof (n : ℕ) (h : n < cfg0.N) : Vec F S2048x768 .bf16 := k0_pay6 (iblk m c 0 (first n h)) (iblk m c 1 (first n h))

/-- AFTER EVERY POINT the carried buffers hold the batch's queries, keys and values. -/
theorem scratch_eq : ∀ (n : ℕ) (h : n < cfg0.N),
    (outsAt0 m c n h).2.1 = Qof m c n h ∧ (outsAt0 m c n h).2.2.1 = Kof m c n h ∧ (outsAt0 m c n h).2.2.2 = Vof m c n h
  | 0, h => by
    have hA : (⟨0, h⟩ : Fin cfg0.N).val % 8 = 0 := rfl
    rw [outsAt0_A m c ⟨0, h⟩ hA]
    dsimp only
    unfold Qof Kof Vof
    rw [first_of_mod h rfl]
    exact ⟨scratchQ_A .., scratchK_A .., scratchV_A ..⟩
  | n + 1, h => by
    by_cases hA : (n + 1) % 8 = 0
    · rw [outsAt0_A m c ⟨n + 1, h⟩ hA]
      dsimp only
      unfold Qof Kof Vof
      rw [first_of_mod h hA]
      exact ⟨scratchQ_A .., scratchK_A .., scratchV_A ..⟩
    · have IH := scratch_eq n (Nat.lt_of_succ_lt h)
      rw [outsAt0_B m c ⟨n + 1, h⟩ hA]
      dsimp only
      unfold sout0_B_0 sout0_B_1 sout0_B_2 Qof Kof Vof
      rw [← first_succ h hA]
      exact IH

/-- EVERY POINT'S OUTPUT BLOCK is `bodyOut` of its batch's queries, keys and values, the output weight and the bias. -/
theorem outBlock_eq : ∀ (n : ℕ) (h : n < cfg0.N),
    (outsAt0 m c n h).1 = bodyOut (grid0.coords ⟨n, h⟩) (Qof m c n h) (Kof m c n h) (Vof m c n h)
      (iblk m c 2 ⟨n, h⟩) (iblk m c 3 ⟨n, h⟩)
  | 0, h => by
    have hA : (⟨0, h⟩ : Fin cfg0.N).val % 8 = 0 := rfl
    rw [outsAt0_A m c ⟨0, h⟩ hA]
    dsimp only
    unfold Qof Kof Vof
    rw [first_of_mod h rfl]
    exact out_A ..
  | n + 1, h => by
    by_cases hA : (n + 1) % 8 = 0
    · rw [outsAt0_A m c ⟨n + 1, h⟩ hA]
      dsimp only
      unfold Qof Kof Vof
      rw [first_of_mod h hA]
      exact out_A ..
    · have IH := scratch_eq m c n (Nat.lt_of_succ_lt h)
      rw [outsAt0_B m c ⟨n + 1, h⟩ hA]
      dsimp only
      rw [out_B]
      show bodyOut (grid0.coords ⟨n + 1, h⟩) (outsAt0 m c n (Nat.lt_of_succ_lt h)).2.1 (outsAt0 m c n (Nat.lt_of_succ_lt h)).2.2.1
        (outsAt0 m c n (Nat.lt_of_succ_lt h)).2.2.2 (iblk m c 2 ⟨n + 1, h⟩) (iblk m c 3 ⟨n + 1, h⟩) = _
      rw [IH.1, IH.2.1, IH.2.2]
      unfold Qof Kof Vof
      rw [← first_succ h hA]

end Attn.K

end
-- ==== Proof.LibRowMax.lean ====
/-
  Row maxima of a matrix, at the exact (extended-real) reading of the float operations.

  The lane reduction by maximum along the columns of an `a × b` matrix, started from a given word, has at row `p` the fold
  of `max` from that word's value over the row's `b` entries (`rowMax_lane_apply`). Also here: the words a printed
  maximum and a printed sum start from (the word of −∞, the word of +0.0) are the neutral words of those reductions,
  stated as equations of the exact form a reduction's side condition has, so that a term built with them is rewritten
  by lemmas about reductions without unfolding anything (`maxAcc`, `addAcc`).
-/
import Idealize.ShloMosaic.PureOps.Ideal.Laws
import Idealize.ShloMosaic.Lib.ValueIdx

noncomputable section

namespace Cert.RowMax

open Idealize.ShloMosaic Idealize.ShloMosaic.ValueIdx

/-- The word a row maximum starts from (that of −∞) is the neutral word of a maximum at f32. -/
theorem maxAcc : (0xFF800000#32 : BitVec 32) = FKind.maximumf.neutral .f32 (.inl rfl) := rfl

/-- The word a row sum starts from (that of +0.0) is the neutral word of a sum at f32. -/
theorem addAcc : (0x00000000#32 : BitVec 32) = FKind.add.neutral .f32 (.inl rfl) := rfl

/-- The maximum of each row of a matrix as the lane reduction gives it: at row `p` the fold of max, from the value of the
    starting word, over that row's entries. -/
theorem rowMax_lane_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  have e : (src ∘ h.lift (ix1 p)) = fun k : Fin b => src (ix2 p k) := funext fun k => congrArg src (funext fun ax => Fin.ext (by
    match ax with
    | ⟨0, _⟩ => rfl
    | ⟨1, _⟩ => rfl))
  rw [e]
  rfl

end Cert.RowMax

end
-- ==== Proof.KOps.lean ====
/-
  The kernel's four matrix products, read at an index on the extended reals.

  Three of the products contract the second coordinate of both operands (rows of the left against rows of the right:
  the projections by a weight stored one output entry per row, and queries against keys); the fourth contracts the left's
  columns with the right's rows (softmax weights against values). Into a zero accumulator each is, at (a, b), the plain sum
  over the contracted coordinate of the products of the entries.
-/
import proofs.«132277_j6124623364158_2_alg».proof.KernelIdeal
import proofs.«132277_j6124623364158_2_alg».proof.Proof.Gen.KernelIdeal
import Idealize.ShloMosaic.PureOps.Ideal.Laws
import Idealize.ShloMosaic.Lib.ValueIdx
import proofs.«132277_j6124623364158_2_alg».proof.Proof.LibRowMax

noncomputable section

open scoped BigOperators

namespace Attn.K

open Cert.KernelIdeal Idealize.ShloMosaic Idealize.ShloMosaic.ValueIdx

theorem mmProj_lhs0 (j : S2048x768.Idx) (q : dot_S2048x768_S768x768_S2048x768_1_1_0_0_n_n.contr.Idx) : (dot_S2048x768_S768x768_S2048x768_1_1_0_0_n_n.lhsIdx j q 0).val = (j 0).val := by
  unfold DotDims.lhsIdx
  rw [dif_neg (show ¬(0 : Fin S2048x768.rank) ∈ dot_S2048x768_S768x768_S2048x768_1_1_0_0_n_n.lhsBatch by decide), dif_pos (show (0 : Fin S2048x768.rank) ∈ dot_S2048x768_S768x768_S2048x768_1_1_0_0_n_n.lhsNonContracting by decide)]
  rfl
theorem mmProj_lhs1 (j : S2048x768.Idx) (q : dot_S2048x768_S768x768_S2048x768_1_1_0_0_n_n.contr.Idx) : (dot_S2048x768_S768x768_S2048x768_1_1_0_0_n_n.lhsIdx j q 1).val = (q ⟨0, by decide⟩).val :=
  dot_S2048x768_S768x768_S2048x768_1_1_0_0_n_n.lhsIdx_val_of_single rfl j q
theorem mmProj_rhs0 (j : S2048x768.Idx) (q : dot_S2048x768_S768x768_S2048x768_1_1_0_0_n_n.contr.Idx) : (dot_S2048x768_S768x768_S2048x768_1_1_0_0_n_n.rhsIdx j q 0).val = (j 1).val := by
  unfold DotDims.rhsIdx
  rw [dif_neg (show ¬(0 : Fin S768x768.rank) ∈ dot_S2048x768_S768x768_S2048x768_1_1_0_0_n_n.rhsBatch by decide), dif_pos (show (0 : Fin S768x768.rank) ∈ dot_S2048x768_S768x768_S2048x768_1_1_0_0_n_n.rhsNonContracting by decide)]
  rfl
theorem mmProj_rhs1 (j : S2048x768.Idx) (q : dot_S2048x768_S768x768_S2048x768_1_1_0_0_n_n.contr.Idx) : (dot_S2048x768_S768x768_S2048x768_1_1_0_0_n_n.rhsIdx j q 1).val = (q ⟨0, by decide⟩).val :=
  dot_S2048x768_S768x768_S2048x768_1_1_0_0_n_n.rhsIdx_val_of_single rfl j q
/-- This product into the zero accumulator, read at row `a`, column `b`: the sum over the contracted coordinate. -/
theorem mmProj_apply {φ₁ φ₂ : FTy} (A : FVec Ideal S2048x768 φ₁) (B : FVec Ideal S768x768 φ₂) (a : Fin 2048) (b : Fin 768) :
    matmul dot_S2048x768_S768x768_S2048x768_1_1_0_0_n_n none A B (constant S2048x768 .f32 0x00000000#32) (ix2 a b) = ∑ c : Fin 768, A (ix2 a c) * B (ix2 b c) := by
  show FloatOps.matmul dot_S2048x768_S768x768_S2048x768_1_1_0_0_n_n none A B (constant S2048x768 .f32 0x00000000#32) (ix2 a b) = _
  rw [Ideal.matmul_constant_zero_apply, ← Equiv.sum_comp (contrEquiv1 dot_S2048x768_S768x768_S2048x768_1_1_0_0_n_n 768 rfl rfl).symm]
  refine Finset.sum_congr rfl fun c _ => ?_
  have hk := contrEquiv1_symm_val dot_S2048x768_S768x768_S2048x768_1_1_0_0_n_n 768 rfl rfl c
  have el : dot_S2048x768_S768x768_S2048x768_1_1_0_0_n_n.lhsIdx (ix2 a b) ((contrEquiv1 dot_S2048x768_S768x768_S2048x768_1_1_0_0_n_n 768 rfl rfl).symm c) = ix2 a c := funext fun ax => Fin.ext (by
    match ax with
    | ⟨0, _⟩ => exact mmProj_lhs0 _ _
    | ⟨1, _⟩ => exact (mmProj_lhs1 _ _).trans hk)
  have er : dot_S2048x768_S768x768_S2048x768_1_1_0_0_n_n.rhsIdx (ix2 a b) ((contrEquiv1 dot_S2048x768_S768x768_S2048x768_1_1_0_0_n_n 768 rfl rfl).symm c) = ix2 b c := funext fun ax => Fin.ext (by
    match ax with
    | ⟨0, _⟩ => exact mmProj_rhs0 _ _
    | ⟨1, _⟩ => exact (mmProj_rhs1 _ _).trans hk)
  rw [el, er]

theorem mmQK_lhs0 (j : S256x2048.Idx) (q : dot_S256x64_S2048x64_S256x2048_1_1_0_0_n_n.contr.Idx) : (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem mmQK_lhs1 (j : S256x2048.Idx) (q : dot_S256x64_S2048x64_S256x2048_1_1_0_0_n_n.contr.Idx) : (dot_S256x64_S2048x64_S256x2048_1_1_0_0_n_n.lhsIdx j q 1).val = (q ⟨0, by decide⟩).val :=
  dot_S256x64_S2048x64_S256x2048_1_1_0_0_n_n.lhsIdx_val_of_single rfl j q
theorem mmQK_rhs0 (j : S256x2048.Idx) (q : dot_S256x64_S2048x64_S256x2048_1_1_0_0_n_n.contr.Idx) : (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem mmQK_rhs1 (j : S256x2048.Idx) (q : dot_S256x64_S2048x64_S256x2048_1_1_0_0_n_n.contr.Idx) : (dot_S256x64_S2048x64_S256x2048_1_1_0_0_n_n.rhsIdx j q 1).val = (q ⟨0, by decide⟩).val :=
  dot_S256x64_S2048x64_S256x2048_1_1_0_0_n_n.rhsIdx_val_of_single rfl j q
/-- This product into the zero accumulator, read at row `a`, column `b`: the sum over the contracted coordinate. -/
theorem mmQK_apply {φ₁ φ₂ : FTy} (A : FVec Ideal S256x64 φ₁) (B : FVec Ideal S2048x64 φ₂) (a : Fin 256) (b : Fin 2048) :
    matmul dot_S256x64_S2048x64_S256x2048_1_1_0_0_n_n none A B (constant S256x2048 .f32 0x00000000#32) (ix2 a b) = ∑ c : Fin 64, A (ix2 a c) * B (ix2 b c) := by
  show FloatOps.matmul dot_S256x64_S2048x64_S256x2048_1_1_0_0_n_n none A B (constant S256x2048 .f32 0x00000000#32) (ix2 a b) = _
  rw [Ideal.matmul_constant_zero_apply, ← Equiv.sum_comp (contrEquiv1 dot_S256x64_S2048x64_S256x2048_1_1_0_0_n_n 64 rfl rfl).symm]
  refine Finset.sum_congr rfl fun c _ => ?_
  have hk := contrEquiv1_symm_val dot_S256x64_S2048x64_S256x2048_1_1_0_0_n_n 64 rfl rfl c
  have el : dot_S256x64_S2048x64_S256x2048_1_1_0_0_n_n.lhsIdx (ix2 a b) ((contrEquiv1 dot_S256x64_S2048x64_S256x2048_1_1_0_0_n_n 64 rfl rfl).symm c) = ix2 a c := funext fun ax => Fin.ext (by
    match ax with
    | ⟨0, _⟩ => exact mmQK_lhs0 _ _
    | ⟨1, _⟩ => exact (mmQK_lhs1 _ _).trans hk)
  have er : dot_S256x64_S2048x64_S256x2048_1_1_0_0_n_n.rhsIdx (ix2 a b) ((contrEquiv1 dot_S256x64_S2048x64_S256x2048_1_1_0_0_n_n 64 rfl rfl).symm c) = ix2 b c := funext fun ax => Fin.ext (by
    match ax with
    | ⟨0, _⟩ => exact mmQK_rhs0 _ _
    | ⟨1, _⟩ => exact (mmQK_rhs1 _ _).trans hk)
  rw [el, er]

theorem mmPV_lhs0 (j : S256x64.Idx) (q : dot_S256x2048_S2048x64_S256x64_1_0_0_1_n_n.contr.Idx) : (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem mmPV_lhs1 (j : S256x64.Idx) (q : dot_S256x2048_S2048x64_S256x64_1_0_0_1_n_n.contr.Idx) : (dot_S256x2048_S2048x64_S256x64_1_0_0_1_n_n.lhsIdx j q 1).val = (q ⟨0, by decide⟩).val :=
  dot_S256x2048_S2048x64_S256x64_1_0_0_1_n_n.lhsIdx_val_of_single rfl j q
theorem mmPV_rhs0 (j : S256x64.Idx) (q : dot_S256x2048_S2048x64_S256x64_1_0_0_1_n_n.contr.Idx) : (dot_S256x2048_S2048x64_S256x64_1_0_0_1_n_n.rhsIdx j q 0).val = (q ⟨0, by decide⟩).val :=
  dot_S256x2048_S2048x64_S256x64_1_0_0_1_n_n.rhsIdx_val_of_single rfl j q
theorem mmPV_rhs1 (j : S256x64.Idx) (q : dot_S256x2048_S2048x64_S256x64_1_0_0_1_n_n.contr.Idx) : (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl
/-- This product into the zero accumulator, read at row `a`, column `b`: the sum over the contracted coordinate. -/
theorem mmPV_apply {φ₁ φ₂ : FTy} (A : FVec Ideal S256x2048 φ₁) (B : FVec Ideal S2048x64 φ₂) (a : Fin 256) (b : Fin 64) :
    matmul dot_S256x2048_S2048x64_S256x64_1_0_0_1_n_n none A B (constant S256x64 .f32 0x00000000#32) (ix2 a b) = ∑ c : Fin 2048, A (ix2 a c) * B (ix2 c b) := by
  show FloatOps.matmul dot_S256x2048_S2048x64_S256x64_1_0_0_1_n_n none A B (constant S256x64 .f32 0x00000000#32) (ix2 a b) = _
  rw [Ideal.matmul_constant_zero_apply, ← Equiv.sum_comp (contrEquiv1 dot_S256x2048_S2048x64_S256x64_1_0_0_1_n_n 2048 rfl rfl).symm]
  refine Finset.sum_congr rfl fun c _ => ?_
  have hk := contrEquiv1_symm_val dot_S256x2048_S2048x64_S256x64_1_0_0_1_n_n 2048 rfl rfl c
  have el : dot_S256x2048_S2048x64_S256x64_1_0_0_1_n_n.lhsIdx (ix2 a b) ((contrEquiv1 dot_S256x2048_S2048x64_S256x64_1_0_0_1_n_n 2048 rfl rfl).symm c) = ix2 a c := funext fun ax => Fin.ext (by
    match ax with
    | ⟨0, _⟩ => exact mmPV_lhs0 _ _
    | ⟨1, _⟩ => exact (mmPV_lhs1 _ _).trans hk)
  have er : dot_S256x2048_S2048x64_S256x64_1_0_0_1_n_n.rhsIdx (ix2 a b) ((contrEquiv1 dot_S256x2048_S2048x64_S256x64_1_0_0_1_n_n 2048 rfl rfl).symm c) = ix2 c b := funext fun ax => Fin.ext (by
    match ax with
    | ⟨0, _⟩ => exact (mmPV_rhs0 _ _).trans hk
    | ⟨1, _⟩ => exact mmPV_rhs1 _ _)
  rw [el, er]

theorem mmOut_lhs0 (j : S256x768.Idx) (q : dot_S256x768_S768x768_S256x768_1_1_0_0_n_n.contr.Idx) : (dot_S256x768_S768x768_S256x768_1_1_0_0_n_n.lhsIdx j q 0).val = (j 0).val := by
  unfold DotDims.lhsIdx
  rw [dif_neg (show ¬(0 : Fin S256x768.rank) ∈ dot_S256x768_S768x768_S256x768_1_1_0_0_n_n.lhsBatch by decide), dif_pos (show (0 : Fin S256x768.rank) ∈ dot_S256x768_S768x768_S256x768_1_1_0_0_n_n.lhsNonContracting by decide)]
  rfl
theorem mmOut_lhs1 (j : S256x768.Idx) (q : dot_S256x768_S768x768_S256x768_1_1_0_0_n_n.contr.Idx) : (dot_S256x768_S768x768_S256x768_1_1_0_0_n_n.lhsIdx j q 1).val = (q ⟨0, by decide⟩).val :=
  dot_S256x768_S768x768_S256x768_1_1_0_0_n_n.lhsIdx_val_of_single rfl j q
theorem mmOut_rhs0 (j : S256x768.Idx) (q : dot_S256x768_S768x768_S256x768_1_1_0_0_n_n.contr.Idx) : (dot_S256x768_S768x768_S256x768_1_1_0_0_n_n.rhsIdx j q 0).val = (j 1).val := by
  unfold DotDims.rhsIdx
  rw [dif_neg (show ¬(0 : Fin S768x768.rank) ∈ dot_S256x768_S768x768_S256x768_1_1_0_0_n_n.rhsBatch by decide), dif_pos (show (0 : Fin S768x768.rank) ∈ dot_S256x768_S768x768_S256x768_1_1_0_0_n_n.rhsNonContracting by decide)]
  rfl
theorem mmOut_rhs1 (j : S256x768.Idx) (q : dot_S256x768_S768x768_S256x768_1_1_0_0_n_n.contr.Idx) : (dot_S256x768_S768x768_S256x768_1_1_0_0_n_n.rhsIdx j q 1).val = (q ⟨0, by decide⟩).val :=
  dot_S256x768_S768x768_S256x768_1_1_0_0_n_n.rhsIdx_val_of_single rfl j q
/-- This product into the zero accumulator, read at row `a`, column `b`: the sum over the contracted coordinate. -/
theorem mmOut_apply {φ₁ φ₂ : FTy} (A : FVec Ideal S256x768 φ₁) (B : FVec Ideal S768x768 φ₂) (a : Fin 256) (b : Fin 768) :
    matmul dot_S256x768_S768x768_S256x768_1_1_0_0_n_n none A B (constant S256x768 .f32 0x00000000#32) (ix2 a b) = ∑ c : Fin 768, A (ix2 a c) * B (ix2 b c) := by
  show FloatOps.matmul dot_S256x768_S768x768_S256x768_1_1_0_0_n_n none A B (constant S256x768 .f32 0x00000000#32) (ix2 a b) = _
  rw [Ideal.matmul_constant_zero_apply, ← Equiv.sum_comp (contrEquiv1 dot_S256x768_S768x768_S256x768_1_1_0_0_n_n 768 rfl rfl).symm]
  refine Finset.sum_congr rfl fun c _ => ?_
  have hk := contrEquiv1_symm_val dot_S256x768_S768x768_S256x768_1_1_0_0_n_n 768 rfl rfl c
  have el : dot_S256x768_S768x768_S256x768_1_1_0_0_n_n.lhsIdx (ix2 a b) ((contrEquiv1 dot_S256x768_S768x768_S256x768_1_1_0_0_n_n 768 rfl rfl).symm c) = ix2 a c := funext fun ax => Fin.ext (by
    match ax with
    | ⟨0, _⟩ => exact mmOut_lhs0 _ _
    | ⟨1, _⟩ => exact (mmOut_lhs1 _ _).trans hk)
  have er : dot_S256x768_S768x768_S256x768_1_1_0_0_n_n.rhsIdx (ix2 a b) ((contrEquiv1 dot_S256x768_S768x768_S256x768_1_1_0_0_n_n 768 rfl rfl).symm c) = ix2 b c := funext fun ax => Fin.ext (by
    match ax with
    | ⟨0, _⟩ => exact mmOut_rhs0 _ _
    | ⟨1, _⟩ => exact (mmOut_rhs1 _ _).trans hk)
  rw [el, er]

end Attn.K

end
-- ==== Proof.LibDenseRows.lean ====
/-
  Rows through dense layers, at the exact (extended-real) reading of the float operations.

  A block of `M` rows with `K` entries each, multiplied by a `K × N` matrix into a zero accumulator, has at row `p`,
  column `j` the sum over `k` of the row's entries times the matrix's column (`matmul_plain_zero_apply`); adding a
  bias row and taking the hyperbolic tangent gives one dense layer (`denseRow`, `dense_apply`), a function of the ONE row
  `p` of the block: this is what lets a product of tall blocks be compared with the product of the whole array, row by
  row. Also here: the keep-dims forms of a column (a vector of length `a` as an `a × 1` matrix, and that column repeated
  along `b` columns), a sum over a row of a matrix as the lane reduction and the host's reduction give it, and a sum over
  `a + b` terms split into its first `a` and last `b`.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace Cert.DenseRows

open Idealize.ShloMosaic Idealize.ShloMosaic.ValueIdx

/-- One dense layer on one row: `tanh (x · W + b)`, entry `j`. -/
def denseRow {K N : Nat} (W : Fin K → Fin N → EReal) (b : Fin N → EReal) (x : Fin K → EReal) : Fin N → EReal :=
  fun j => Ideal.tanh ((∑ k : Fin K, x k * W k j) + b j)

/-- The entries of a matrix as a function of row and column. -/
abbrev mat {K N : Nat} (w : (⟨2, ![K, N]⟩ : Shape).Idx → EReal) : Fin K → Fin N → EReal := fun k j => w (ix2 k j)
/-- The entries of a one-row matrix as a function of the column. -/
abbrev row1 {N : Nat} (b : (⟨2, ![1, N]⟩ : Shape).Idx → EReal) : Fin N → EReal := fun j => b (ix2 (0 : Fin 1) j)
/-- Row `p` of a matrix. -/
abbrev rowOf {M K : Nat} (x : (⟨2, ![M, K]⟩ : Shape).Idx → EReal) (p : Fin M) : Fin K → EReal := fun k => x (ix2 p k)

/-- A product of an `m × k` by a `k × n` matrix into the zero accumulator, read at row `a`, column `b`: the sum over
    the contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have h1 := Ideal.matmul_constant_zero_apply (DotDims.plain m k n) prec A B (ix2 a b)
  have h2 := StackMember.dotGeneral_plain_apply prec A B a b
  have h3 : Host.dotGeneral (DotDims.plain m k n) prec A B (ix2 a b)
      = ∑ q : (DotDims.plain m k n).contr.Idx, A ((DotDims.plain m k n).lhsIdx (ix2 a b) q) * B ((DotDims.plain m k n).rhsIdx (ix2 a b) q) := by
    show FloatOps.dotGeneral _ prec _ A B (ix2 a b) = _
    exact Ideal.dotGeneral_apply _ _ _ _ _ _
  exact h1.trans (h3.symm.trans h2)

/-- ONE DENSE LAYER of a block of rows, as a kernel writes it — both operands narrowed (the identity on exact values),
    multiplied into a zero accumulator, the bias row repeated down the rows and added, then `tanh` — read at row `p`,
    column `j`, is `denseRow` of row `p` alone. -/
theorem dense_apply {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨2, ![1, N]⟩ .f32)
    (hx : FTy.bits .bf16 < FTy.bits .f32) (hsc : (⟨2, ![1, N]⟩ : Shape).ShapeCasts ⟨2, ![1, N]⟩)
    (hbc : (⟨2, ![1, N]⟩ : Shape).Broadcasts ⟨2, ![M, N]⟩) (p : Fin M) (j : Fin N) :
    tanh (addf (matmul D none (truncf .bf16 x hx) (truncf .bf16 w hx) (constant ⟨2, ![M, N]⟩ .f32 0x00000000#32))
        (broadcastTo ⟨2, ![M, N]⟩ (shapeCast ⟨2, ![1, N]⟩ b hsc) hbc)) (ix2 p j)
      = denseRow (mat w) (row1 b) (rowOf x p) j := by
  subst hD
  show Ideal.tanh (matmul (DotDims.plain M K N) none (truncf .bf16 x hx) (truncf .bf16 w hx) (constant ⟨2, ![M, N]⟩ .f32 0x00000000#32) (ix2 p j)
      + broadcastTo ⟨2, ![M, N]⟩ (shapeCast ⟨2, ![1, N]⟩ b hsc) hbc (ix2 p j)) = _
  rw [matmul_plain_zero_apply, broadcastTo_1b_ab_apply, shapeCast_self]
  rfl

/-- A vector of length `a` cast to an `a × 1` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated along `b` columns reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a matrix's rows over its columns, as the vector unit's lane reduction onto a neutral accumulator gives it:
    at row `p` the sum of that row's entries. -/
theorem rowSum_lane_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext ax; apply Fin.ext
  match ax with
  | ⟨0, _⟩ => rfl
  | ⟨1, _⟩ => rfl

/-- The sum of a matrix's rows over its columns as the host's reduction gives it: at row `p` the initial value plus the sum
    of that row's entries. -/
theorem rowSum_host_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => congrArg x ?_)
  funext ax; apply Fin.ext
  match ax with
  | ⟨0, _⟩ => rfl
  | ⟨1, _⟩ => rfl

/-- The radial features of one row `h` against prototypes given by columns (`PT k j` is coordinate `k` of prototype `j`,
    `p2 j` its squared length): `exp (c₁ · ((|h|² + p2 j) − c₂ · ⟨h, P_j⟩))`, the two constants kept as their words
    (`c₁` is the word of `-1.0`, `c₂` the word of `2.0`). -/
def rbfRow {d n : Nat} (PT : Fin d → Fin n → EReal) (p2 : Fin n → EReal) (h : Fin d → EReal) : Fin n → EReal :=
  fun j => Ideal.exp (Ideal.ofBits .f32 0xBF800000#32
    * (((∑ k : Fin d, h k * h k) + p2 j) - Ideal.ofBits .f32 0x40000000#32 * ∑ k : Fin d, h k * PT k j))

/-- The logistic head on one row: the features `h` against `wx`, the radial features `f` against `wk`, a bias. -/
def headRow {d n : Nat} (wx : Fin d → EReal) (wk : Fin n → EReal) (bh : EReal) (h : Fin d → EReal) (f : Fin n → EReal) : EReal :=
  Ideal.logistic (((∑ k : Fin d, h k * wx k) + ∑ k : Fin n, f k * wk k) + bh)

/-- THE RADIAL FEATURES of a block of rows as a kernel writes them — the rows' squared lengths by a lane reduction kept as
    a column and repeated along the prototypes, the prototypes' squared lengths as a row repeated down the rows, the inner
    products by a product into a zero accumulator — read at row `p`, prototype `j`, are `rbfRow` of row `p` alone. -/
theorem rbf_apply {M d n : Nat} (D : DotDims ⟨2, ![M, d]⟩ ⟨2, ![d, n]⟩ ⟨2, ![M, n]⟩) (hD : D = DotDims.plain M d n)
    (h : FVec Ideal ⟨2, ![M, d]⟩ .f32) (pt : FVec Ideal ⟨2, ![d, n]⟩ .f32) (p2 : FVec Ideal ⟨2, ![1, n]⟩ .f32)
    (hx : FTy.bits .bf16 < FTy.bits .f32)
    (hred : (⟨2, ![M, d]⟩ : Shape).Reduces [1] ⟨1, ![M]⟩) (hφ : FKind.Formats .f32)
    (hacc : (0x00000000#32 : BitVec 32) = FKind.add.neutral .f32 hφ)
    (hsc1 : (⟨1, ![M]⟩ : Shape).ShapeCasts ⟨2, ![M, 1]⟩) (hbc1 : (⟨2, ![M, 1]⟩ : Shape).Broadcasts ⟨2, ![M, n]⟩)
    (hsc2 : (⟨2, ![1, n]⟩ : Shape).ShapeCasts ⟨2, ![1, n]⟩) (hbc2 : (⟨2, ![1, n]⟩ : Shape).Broadcasts ⟨2, ![M, n]⟩)
    (hsc3 : (⟨2, ![d, n]⟩ : Shape).ShapeCasts ⟨2, ![d, n]⟩) (p : Fin M) (j : Fin n) :
    exp (mulf (broadcast ⟨2, ![M, n]⟩ (Scalar.ofBits .f32 0xBF800000#32))
        (subf (addf (broadcastTo ⟨2, ![M, n]⟩ (shapeCast ⟨2, ![M, 1]⟩ (multiReduction .add [1] ⟨1, ![M]⟩ (mulf h h) 0x00000000#32 hred hφ hacc) hsc1) hbc1)
                    (broadcastTo ⟨2, ![M, n]⟩ (shapeCast ⟨2, ![1, n]⟩ p2 hsc2) hbc2))
              (mulf (broadcast ⟨2, ![M, n]⟩ (Scalar.ofBits .f32 0x40000000#32))
                    (matmul D none (truncf .bf16 h hx) (truncf .bf16 (shapeCast ⟨2, ![d, n]⟩ pt hsc3) hx) (constant ⟨2, ![M, n]⟩ .f32 0x00000000#32))))) (ix2 p j)
      = rbfRow (mat pt) (row1 p2) (rowOf h p) j := by
  subst hD
  show Ideal.exp (Ideal.ofBits .f32 0xBF800000#32
      * ((broadcastTo ⟨2, ![M, n]⟩ (shapeCast ⟨2, ![M, 1]⟩ (multiReduction .add [1] ⟨1, ![M]⟩ (mulf h h) 0x00000000#32 hred hφ hacc) hsc1) hbc1 (ix2 p j)
          + broadcastTo ⟨2, ![M, n]⟩ (shapeCast ⟨2, ![1, n]⟩ p2 hsc2) hbc2 (ix2 p j))
        - Ideal.ofBits .f32 0x40000000#32
          * matmul (DotDims.plain M d n) none (truncf .bf16 h hx) (truncf .bf16 (shapeCast ⟨2, ![d, n]⟩ pt hsc3) hx) (constant ⟨2, ![M, n]⟩ .f32 0x00000000#32) (ix2 p j))) = _
  rw [matmul_plain_zero_apply, broadcastTo_a1_ab_apply, shapeCast_a_a1_apply, rowSum_lane_apply, broadcastTo_1b_ab_apply,
    shapeCast_self, shapeCast_self]
  rfl

/-- THE HEAD of a block of rows as a kernel writes it — two products into zero accumulators added, the one bias repeated
    down the rows, the logistic function — read at row `p` (and the one column `q`) is `headRow` of row `p` alone. -/
theorem head_apply {M d n : Nat} (D1 : DotDims ⟨2, ![M, d]⟩ ⟨2, ![d, 1]⟩ ⟨2, ![M, 1]⟩) (hD1 : D1 = DotDims.plain M d 1)
    (D2 : DotDims ⟨2, ![M, n]⟩ ⟨2, ![n, 1]⟩ ⟨2, ![M, 1]⟩) (hD2 : D2 = DotDims.plain M n 1)
    (h : FVec Ideal ⟨2, ![M, d]⟩ .bf16) (f : FVec Ideal ⟨2, ![M, n]⟩ .f32) (wx : FVec Ideal ⟨2, ![d, 1]⟩ .bf16)
    (wk : FVec Ideal ⟨2, ![n, 1]⟩ .f32) (bh : FVec Ideal ⟨2, ![1, 1]⟩ .f32)
    (hx : FTy.bits .bf16 < FTy.bits .f32)
    (hsc : (⟨2, ![n, 1]⟩ : Shape).ShapeCasts ⟨2, ![n, 1]⟩) (hsc' : (⟨2, ![1, 1]⟩ : Shape).ShapeCasts ⟨2, ![1, 1]⟩)
    (hbc : (⟨2, ![1, 1]⟩ : Shape).Broadcasts ⟨2, ![M, 1]⟩) (p : Fin M) (q : Fin 1) :
    logistic (addf (addf (matmul D1 none h wx (constant ⟨2, ![M, 1]⟩ .f32 0x00000000#32))
          (matmul D2 none (truncf .bf16 f hx) (truncf .bf16 (shapeCast ⟨2, ![n, 1]⟩ wk hsc) hx) (constant ⟨2, ![M, 1]⟩ .f32 0x00000000#32)))
        (broadcastTo ⟨2, ![M, 1]⟩ (shapeCast ⟨2, ![1, 1]⟩ bh hsc') hbc)) (ix2 p q)
      = headRow (fun k => wx (ix2 k q)) (fun k => wk (ix2 k q)) (bh (ix2 (0 : Fin 1) q)) (rowOf h p) (rowOf f p) := by
  subst hD1 hD2
  show Ideal.logistic ((matmul (DotDims.plain M d 1) none h wx (constant ⟨2, ![M, 1]⟩ .f32 0x00000000#32) (ix2 p q)
        + matmul (DotDims.plain M n 1) none (truncf .bf16 f hx) (truncf .bf16 (shapeCast ⟨2, ![n, 1]⟩ wk hsc) hx) (constant ⟨2, ![M, 1]⟩ .f32 0x00000000#32) (ix2 p q))
      + broadcastTo ⟨2, ![M, 1]⟩ (shapeCast ⟨2, ![1, 1]⟩ bh hsc') hbc (ix2 p q)) = _
  rw [matmul_plain_zero_apply, matmul_plain_zero_apply, broadcastTo_1b_ab_apply, shapeCast_self, shapeCast_self]
  rfl

/-- The weights of the six dense layers, of the radial features and of the head, as plain functions of their coordinates. -/
structure Weights where
  W0 : Fin 8 → Fin 16 → EReal
  b0 : Fin 16 → EReal
  W1 : Fin 16 → Fin 16 → EReal
  b1 : Fin 16 → EReal
  W2 : Fin 16 → Fin 12 → EReal
  b2 : Fin 12 → EReal
  W3 : Fin 12 → Fin 8 → EReal
  b3 : Fin 8 → EReal
  W4 : Fin 8 → Fin 4 → EReal
  b4 : Fin 4 → EReal
  W5 : Fin 4 → Fin 4 → EReal
  b5 : Fin 4 → EReal
  PT : Fin 4 → Fin 10 → EReal
  p2 : Fin 10 → EReal
  wx : Fin 4 → EReal
  wk : Fin 10 → EReal
  bh : EReal

/-- The first four dense layers on one row of eight inputs. -/
def feat4 (θ : Weights) (x : Fin 8 → EReal) : Fin 8 → EReal :=
  denseRow θ.W3 θ.b3 (denseRow θ.W2 θ.b2 (denseRow θ.W1 θ.b1 (denseRow θ.W0 θ.b0 x)))
/-- All six dense layers on one row: the four features the head and the radial features read. -/
def feat (θ : Weights) (x : Fin 8 → EReal) : Fin 4 → EReal :=
  denseRow θ.W5 θ.b5 (denseRow θ.W4 θ.b4 (feat4 θ x))
/-- THE WHOLE NETWORK on one row: the logistic head of the features and of their radial features. -/
def outRow (θ : Weights) (x : Fin 8 → EReal) : EReal :=
  headRow θ.wx θ.wk θ.bh (feat θ x) (rbfRow θ.PT θ.p2 (feat θ x))

/-- A sum over `a + b` terms is the sum of the first `a` and of the last `b`. -/
theorem sum_split {M : Type*} [AddCommMonoid M] (a b : ℕ) (f : Fin (a + b) → M) :
    ∑ k : Fin (a + b), f k = (∑ k : Fin a, f (Fin.castAdd b k)) + ∑ k : Fin b, f (Fin.natAdd a k) :=
  Fin.sum_univ_add f

end Cert.DenseRows

end
-- ==== Proof.Spec.lean ====
/-
  Multi-head self-attention followed by an output projection, as ONE function of its four argument arrays, index by
  index, on the extended reals.

  The input `x` has 4 batches of 2048 rows of 768 entries. The stacked weight `w` has 2304 = 3 · 768 rows: rows
  `768 g + r` (g = 0, 1, 2) project a row of `x` to entry `r` of its query, key and value. The 768 entries of a
  query, key or value are 12 heads of 64: entry `64 h + e` is entry `e` of head `h`. For a batch, a head and a
  query row the score against key row `j` is the inner product of the scaled query head with the key head; the
  scores of a row are shifted by their maximum, exponentiated and divided by their sum; the context is the
  weighted sum of the value heads; the 12 contexts side by side are one row of 768 entries, which the output
  weight `wp` projects and to which the bias is added.
-/
import Idealize.ShloMosaic.PureOps.Ideal
import Idealize.ShloMosaic.Lib.ValueIdx

noncomputable section

open scoped BigOperators

namespace Attn

open Idealize.ShloMosaic Idealize.ShloMosaic.ValueIdx

/-- Entry `e` of head `h` among the 768 entries of a row. -/
def hd (h : Fin 12) (e : Fin 64) : Fin 768 := ⟨h.val * 64 + e.val, by have := h.isLt; have := e.isLt; omega⟩

/-- Row `r` of the `g`-th of the three stacked blocks of 768 weight rows. -/
def wrow (g : Fin 3) (r : Fin 768) : Fin 2304 := ⟨g.val * 768 + r.val, by have := g.isLt; have := r.isLt; omega⟩

/-- The head an entry of a row of 768 belongs to, and its place in the head. -/
def headOf (c : Fin 768) : Fin 12 := ⟨c.val / 64, by have := c.isLt; omega⟩
def inHead (c : Fin 768) : Fin 64 := ⟨c.val % 64, Nat.mod_lt _ (by decide)⟩

/-- The factor the queries are scaled by (the word of 1/8), kept as its word. -/
def scale : EReal := Ideal.ofBits .f32 0x3E000000#32

/-- The value every row maximum starts from (the word of −∞), kept as its word. -/
def negInf : EReal := Ideal.ofBits .f32 0xFF800000#32

variable (x : (⟨3, ![4, 2048, 768]⟩ : Shape).Idx → EReal) (w : (⟨2, ![2304, 768]⟩ : Shape).Idx → EReal)
  (wp : (⟨2, ![768, 768]⟩ : Shape).Idx → EReal) (bias : (⟨1, ![768]⟩ : Shape).Idx → EReal)

/-- Entry `r` of the query (`g = 0`), key (`g = 1`) or value (`g = 2`) of row `n` of batch `b`. -/
def proj (g : Fin 3) (b : Fin 4) (n : Fin 2048) (r : Fin 768) : EReal :=
  ∑ c : Fin 768, x (ix3 b n c) * w (ix2 (wrow g r) c)

/-- The score of query row `n` against key row `j` in head `h` of batch `b`. -/
def score (b : Fin 4) (h : Fin 12) (n j : Fin 2048) : EReal :=
  ∑ e : Fin 64, (proj x w 0 b n (hd h e) * scale) * proj x w 1 b j (hd h e)

/-- The largest score of a query row. -/
def rowMax (b : Fin 4) (h : Fin 12) (n : Fin 2048) : EReal :=
  (Finset.univ : Finset (Fin 2048)).fold max negInf (fun j => score x w b h n j)

/-- The exponential of a score shifted by its row's maximum. -/
def expo (b : Fin 4) (h : Fin 12) (n j : Fin 2048) : EReal :=
  Ideal.exp (score x w b h n j - rowMax x w b h n)

/-- The softmax weight of key row `j` for query row `n`. -/
def prob (b : Fin 4) (h : Fin 12) (n j : Fin 2048) : EReal :=
  Ideal.div (expo x w b h n j) (∑ j' : Fin 2048, expo x w b h n j')

/-- Entry `e` of the context of query row `n` in head `h`. -/
def ctx (b : Fin 4) (h : Fin 12) (n : Fin 2048) (e : Fin 64) : EReal :=
  ∑ j : Fin 2048, prob x w b h n j * proj x w 2 b j (hd h e)

/-- THE RESULT at index `(b, n, d)`. -/
def out (i : (⟨3, ![4, 2048, 768]⟩ : Shape).Idx) : EReal :=
  (∑ c : Fin 768, ctx x w (i 0) (headOf c) (i 1) (inHead c) * wp (ix2 (i 2) c)) + bias (ix1 (i 2))

end Attn

end
-- ==== Proof.KHead.lean ====
/-
  One attention head, and the twelve of them side by side projected to the output, read at an index.

  The kernel's body repeats one computation twelve times, on the 64 columns starting at 0, 64, …, 704 of the query
  rows, the keys and the values: the scaled queries against the keys (a 256 × 2048 matrix of scores), each score minus
  its row's maximum, exponentiated, divided by its row's sum, and these weights against the values. `headOut o` is that
  computation at column offset `o`; the body's own text cuts its long straight line into windows at places that fall
  inside a head, so three heads are written there in two or three parts, but each head, parts put together, is
  `headOut` at its offset, by unfolding alone. `tailOut` is what follows the heads: the twelve 256 × 64 results side by
  side, times the output weight, plus the bias row.

  On the extended reals a head at row `r`, column `e` is `ctxOf` of that row's query entries and of the keys' and
  values' entries in the head's columns: the sum over key rows of softmax weight times value entry.
-/
import proofs.«132277_j6124623364158_2_alg».proof.Proof.Gen.KernelIdeal.Skeleton
import proofs.«132277_j6124623364158_2_alg».proof.Proof.KOps
import proofs.«132277_j6124623364158_2_alg».proof.Proof.LibDenseRows
import proofs.«132277_j6124623364158_2_alg».proof.Proof.Spec
import Idealize.ShloMosaic.Lib.ValueLayout
import Idealize.ShloMosaic.Lib.Pipeline.Value

noncomputable section

open scoped BigOperators

namespace Attn.K

open Cert.KernelIdeal Cert.KernelIdeal.Gen Idealize.ShloMosaic Idealize.ShloMosaic.ValueIdx Cert.DenseRows Cert.RowMax

/-! ## The terms, at any reading of the floats -/

section Terms

variable {F : FTy → Type} [FloatOps F]

/-- The scores of the head at column offset `o`: scaled query rows against key rows. -/
def headScores (o : ℕ) (hq : S256x768.Slices ![0, o] S256x64) (hk : S2048x768.Slices ![0, o] S2048x64)
    (v6 : Vec F S256x768 .bf16) (v7 : Vec F S2048x768 .bf16) : FVec F S256x2048 .f32 :=
  matmul dot_S256x64_S2048x64_S256x2048_1_1_0_0_n_n none
    (truncf .bf16 (mulf (extf .f32 (extractStridedSlice S256x64 ![0, o] v6 hq) bitsLt_bf16_f32)
      (broadcast S256x64 (Scalar.ofBits .f32 0x3E000000#32))) bitsLt_bf16_f32)
    (extractStridedSlice S2048x64 ![0, o] v7 hk) (constant S256x2048 .f32 0x00000000#32)

/-- Each score minus its row's maximum, exponentiated. -/
def headExp (o : ℕ) (hq : S256x768.Slices ![0, o] S256x64) (hk : S2048x768.Slices ![0, o] S2048x64)
    (v6 : Vec F S256x768 .bf16) (v7 : Vec F S2048x768 .bf16) : FVec F S256x2048 .f32 :=
  exp (subf (headScores o hq hk v6 v7)
    (broadcastTo S256x2048 (shapeCast S256x1 (multiReduction .maximumf [1] S256 (headScores o hq hk v6 v7) 0xFF800000#32
      reduces_S256x2048_S256 (.inl rfl) maxAcc) shapeCasts_S256_S256x1) broadcasts_S256x1_S256x2048))

/-- Exponentials divided by their row sums, against a head's values. -/
def headFrom (vv : FVec F S2048x64 .bf16) (p : FVec F S256x2048 .f32) : FVec F S256x64 .f32 :=
  matmul dot_S256x2048_S2048x64_S256x64_1_0_0_1_n_n none
    (truncf .bf16 (divf p (broadcastTo S256x2048 (shapeCast S256x1 (multiReduction .add [1] S256 p 0x00000000#32
      reduces_S256x2048_S256 (.inl rfl) addAcc) shapeCasts_S256_S256x1) broadcasts_S256x1_S256x2048)) bitsLt_bf16_f32)
    vv (constant S256x64 .f32 0x00000000#32)

/-- One head at column offset `o`. -/
def headOut (o : ℕ) (hq : S256x768.Slices ![0, o] S256x64) (hk : S2048x768.Slices ![0, o] S2048x64)
    (v6 : Vec F S256x768 .bf16) (v7 v8 : Vec F S2048x768 .bf16) : FVec F S256x64 .f32 :=
  headFrom (extractStridedSlice S2048x64 ![0, o] v8 hk) (headExp o hq hk v6 v7)

/-- The twelve heads side by side, times the output weight, plus the bias row, as a 1 × 256 × 768 block. -/
def tailOut (hs : Fin 12 → FVec F S256x64 .f32) (v239 : Vec F S768x768 .bf16) (v242 : Vec F S768 .f32) :
    FVec F S1x256x768 .f32 :=
  shapeCast S1x256x768 (addf (matmul dot_S256x768_S768x768_S256x768_1_1_0_0_n_n none
      (truncf .bf16 (concatenate S256x768 1 [⟨S256x64, hs 0⟩, ⟨S256x64, hs 1⟩, ⟨S256x64, hs 2⟩, ⟨S256x64, hs 3⟩, ⟨S256x64, hs 4⟩, ⟨S256x64, hs 5⟩, ⟨S256x64, hs 6⟩, ⟨S256x64, hs 7⟩, ⟨S256x64, hs 8⟩, ⟨S256x64, hs 9⟩, ⟨S256x64, hs 10⟩, ⟨S256x64, hs 11⟩] concatenates_S256x64_S256x64_S256x64_S256x64_S256x64_S256x64_S256x64_S256x64_S256x64_S256x64_S256x64_S256x64_S256x768_d1) bitsLt_bf16_f32)
      (shapeCast S768x768 v239 shapeCasts_S768x768_S768x768) (constant S256x768 .f32 0x00000000#32))
    (broadcastTo S256x768 (shapeCast S1x768 v242 shapeCasts_S768_S1x768) broadcasts_S1x768_S256x768))
    shapeCasts_S256x768_S1x256x768

theorem slQ (h : Fin 12) : S256x768.Slices ![0, h.val * 64] S256x64 :=
  ⟨rfl, fun a => by
    have := h.isLt
    match a with
    | ⟨0, _⟩ => show 0 + 256 ≤ 256; omega
    | ⟨1, _⟩ => show h.val * 64 + 64 ≤ 768; omega⟩

theorem slK (h : Fin 12) : S2048x768.Slices ![0, h.val * 64] S2048x64 :=
  ⟨rfl, fun a => by
    have := h.isLt
    match a with
    | ⟨0, _⟩ => show 0 + 2048 ≤ 2048; omega
    | ⟨1, _⟩ => show h.val * 64 + 64 ≤ 768; omega⟩

/-- Head `h`: the head at column offset `64 h`. -/
def heads (v6 : Vec F S256x768 .bf16) (v7 v8 : Vec F S2048x768 .bf16) (h : Fin 12) : FVec F S256x64 .f32 :=
  headOut (h.val * 64) (slQ h) (slK h) v6 v7 v8

end Terms

end Attn.K

end
-- ==== Proof.KBody.lean ====
/-
  The output block of a grid point is the twelve heads of its query rows, side by side, projected.

  The body's straight line is cut into windows at places that fall inside heads 1, 4, 6, 9 and 11, so those heads are
  written there in parts (a slice of the values, the shifted exponentials, and the rest; or the three slices and the
  rest); each head, its parts put together, is the head at column offset 64 h, and what follows the eleventh head's
  exponentials — its normalisation and product with the values, the twelve results side by side, the output weight,
  the bias — is `tailOut`. All by unfolding the definitions.
-/
import proofs.«132277_j6124623364158_2_alg».proof.Proof.KPieces
import proofs.«132277_j6124623364158_2_alg».proof.Proof.KHead

noncomputable section

namespace Attn.K

open Cert.KernelIdeal Cert.KernelIdeal.Gen Idealize.ShloMosaic

variable {F : FTy → Type} [FloatOps F]

theorem head0_eq (v6 : Vec F S256x768 .bf16) (v7 v8 : Vec F S2048x768 .bf16) :
    k0_pay7 v6 v7 v8 = heads v6 v7 v8 0 := rfl
theorem head1_eq (v6 : Vec F S256x768 .bf16) (v7 v8 : Vec F S2048x768 .bf16) :
    k0_pay10 (k0_pay8 v8) (k0_pay9 v6 v7) = heads v6 v7 v8 1 := rfl
theorem head2_eq (v6 : Vec F S256x768 .bf16) (v7 v8 : Vec F S2048x768 .bf16) :
    k0_pay11 v6 v7 v8 = heads v6 v7 v8 2 := rfl
theorem head3_eq (v6 : Vec F S256x768 .bf16) (v7 v8 : Vec F S2048x768 .bf16) :
    k0_pay12 v6 v7 v8 = heads v6 v7 v8 3 := rfl
theorem head4_eq (v6 : Vec F S256x768 .bf16) (v7 v8 : Vec F S2048x768 .bf16) :
    k0_pay16 (k0_pay13 v7) (k0_pay14 v8) (k0_pay15 v6) = heads v6 v7 v8 4 := rfl
theorem head5_eq (v6 : Vec F S256x768 .bf16) (v7 v8 : Vec F S2048x768 .bf16) :
    k0_pay17 v6 v7 v8 = heads v6 v7 v8 5 := rfl
theorem head6_eq (v6 : Vec F S256x768 .bf16) (v7 v8 : Vec F S2048x768 .bf16) :
    k0_pay20 (k0_pay18 v8) (k0_pay19 v6 v7) = heads v6 v7 v8 6 := rfl
theorem head7_eq (v6 : Vec F S256x768 .bf16) (v7 v8 : Vec F S2048x768 .bf16) :
    k0_pay21 v6 v7 v8 = heads v6 v7 v8 7 := rfl
theorem head8_eq (v6 : Vec F S256x768 .bf16) (v7 v8 : Vec F S2048x768 .bf16) :
    k0_pay22 v6 v7 v8 = heads v6 v7 v8 8 := rfl
theorem head9_eq (v6 : Vec F S256x768 .bf16) (v7 v8 : Vec F S2048x768 .bf16) :
    k0_pay26 (k0_pay23 v7) (k0_pay24 v8) (k0_pay25 v6) = heads v6 v7 v8 9 := rfl
theorem head10_eq (v6 : Vec F S256x768 .bf16) (v7 v8 : Vec F S2048x768 .bf16) :
    k0_pay27 v6 v7 v8 = heads v6 v7 v8 10 := rfl
theorem head11_eq (v6 : Vec F S256x768 .bf16) (v7 v8 : Vec F S2048x768 .bf16) :
    headFrom (k0_pay28 v8) (k0_pay29 v6 v7) = heads v6 v7 v8 11 := rfl

/-- What follows the heads. -/
theorem tail_eq (a0 a1 a2 a3 a4 a5 a6 a7 a8 a9 a10 : FVec F S256x64 .f32) (v220 : FVec F S2048x64 .bf16) (v230 : FVec F S256x2048 .f32)
    (v239 : Vec F S768x768 .bf16) (v242 : Vec F S768 .f32) :
    k0_pay1 a0 a1 a2 a3 a4 a5 a6 a7 a8 a9 a10 v220 v230 v239 v242
      = tailOut ![a0, a1, a2, a3, a4, a5, a6, a7, a8, a9, a10, headFrom v220 v230] v239 v242 := rfl

/-- THE BLOCK: a grid point's output block is the projected row of the twelve heads of its 256 query rows. -/
theorem bodyOut_eq (i : grid0.Coords) (Q K V : Vec F S2048x768 .bf16) (x2 : Vec F S768x768 .bf16) (x3 : Vec F S768 .f32) :
    bodyOut i Q K V x2 x3 = tailOut (heads (qrows i Q) K V) x2 x3 := by
  unfold bodyOut
  rw [tail_eq]
  refine congrArg (fun hs => tailOut hs x2 x3) (funext fun h => ?_)
  fin_cases h
  · exact head0_eq _ _ _
  · exact head1_eq _ _ _
  · exact head2_eq _ _ _
  · exact head3_eq _ _ _
  · exact head4_eq _ _ _
  · exact head5_eq _ _ _
  · exact head6_eq _ _ _
  · exact head7_eq _ _ _
  · exact head8_eq _ _ _
  · exact head9_eq _ _ _
  · exact head10_eq _ _ _
  · exact head11_eq _ _ _

end Attn.K

end
-- ==== Proof.KHeadRead.lean ====
/-
  One head and the projected row of heads, at an index, on the extended reals.

  For one query row the scores against the 2048 key rows are `scoreOf`, the shifted exponentials `expoOf`, and entry `e`
  of the head's result `ctxOf`: the sum over key rows of (exponential / row sum) times the value entry. These are
  functions of the row's 64 query entries and the 2048 × 64 key and value entries of the head alone.
-/
import proofs.«132277_j6124623364158_2_alg».proof.Proof.KHead

noncomputable section

open scoped BigOperators

namespace Attn.K

open Cert.KernelIdeal Cert.KernelIdeal.Gen Idealize.ShloMosaic Idealize.ShloMosaic.ValueIdx Cert.DenseRows Cert.RowMax

/-- The scores of one query row `q` (its 64 entries in a head) against the key rows `k`. -/
def scoreOf (q : Fin 64 → EReal) (k : Fin 2048 → Fin 64 → EReal) (j : Fin 2048) : EReal :=
  ∑ e : Fin 64, (q e * Attn.scale) * k j e

/-- A score minus the row's largest, exponentiated. -/
def expoOf (q : Fin 64 → EReal) (k : Fin 2048 → Fin 64 → EReal) (j : Fin 2048) : EReal :=
  Ideal.exp (scoreOf q k j - (Finset.univ : Finset (Fin 2048)).fold max Attn.negInf (fun j' => scoreOf q k j'))

/-- Entry `e` of the head's result for the row: softmax weights against the value rows `v`. -/
def ctxOf (q : Fin 64 → EReal) (k v : Fin 2048 → Fin 64 → EReal) (e : Fin 64) : EReal :=
  ∑ j : Fin 2048, Ideal.div (expoOf q k j) (∑ j' : Fin 2048, expoOf q k j') * v j e

section Head

theorem headScores_apply (o : ℕ) (hq : S256x768.Slices ![0, o] S256x64) (hk : S2048x768.Slices ![0, o] S2048x64)
    (lane : Fin 64 → Fin 768) (hl : ∀ e, (lane e).val = o + e.val)
    (v6 : Vec Ideal S256x768 .bf16) (v7 : Vec Ideal S2048x768 .bf16) (r : Fin 256) (j : Fin 2048) :
    headScores o hq hk v6 v7 (ix2 r j)
      = scoreOf (fun e => v6 (ix2 r (lane e))) (fun j e => v7 (ix2 j (lane e))) j := by
  unfold headScores scoreOf
  rw [mmQK_apply]
  refine Finset.sum_congr rfl fun c _ => ?_
  rw [truncf_apply, mulf_apply, extf_apply, broadcast_apply, slice2_axis1_apply o v6 hq r c (lane c) (hl c),
    slice2_axis1_apply o v7 hk j c (lane c) (hl c)]
  rfl

theorem headExp_apply (o : ℕ) (hq : S256x768.Slices ![0, o] S256x64) (hk : S2048x768.Slices ![0, o] S2048x64)
    (lane : Fin 64 → Fin 768) (hl : ∀ e, (lane e).val = o + e.val)
    (v6 : Vec Ideal S256x768 .bf16) (v7 : Vec Ideal S2048x768 .bf16) (r : Fin 256) (j : Fin 2048) :
    headExp o hq hk v6 v7 (ix2 r j)
      = expoOf (fun e => v6 (ix2 r (lane e))) (fun j e => v7 (ix2 j (lane e))) j := by
  unfold headExp expoOf
  show Ideal.exp (headScores o hq hk v6 v7 (ix2 r j)
    - broadcastTo S256x2048 (shapeCast S256x1 (multiReduction .maximumf [1] S256 (headScores o hq hk v6 v7) 0xFF800000#32
        reduces_S256x2048_S256 (.inl rfl) maxAcc) shapeCasts_S256_S256x1) broadcasts_S256x1_S256x2048 (ix2 r j)) = _
  rw [broadcastTo_a1_ab_apply, shapeCast_a_a1_apply, rowMax_lane_apply]
  simp only [headScores_apply o hq hk lane hl v6 v7]
  rfl

theorem headFrom_apply (vv : FVec Ideal S2048x64 .bf16) (p : FVec Ideal S256x2048 .f32) (r : Fin 256) (e : Fin 64) :
    headFrom vv p (ix2 r e)
      = ∑ j : Fin 2048, Ideal.div (p (ix2 r j)) (∑ j' : Fin 2048, p (ix2 r j')) * vv (ix2 j e) := by
  unfold headFrom
  rw [mmPV_apply]
  refine Finset.sum_congr rfl fun j _ => ?_
  rw [truncf_apply, divf_apply, broadcastTo_a1_ab_apply, shapeCast_a_a1_apply, rowSum_lane_apply]

/-- A HEAD AT AN INDEX: row `r`, entry `e` of the head at column offset `o` is `ctxOf` of row `r`'s query entries and the
    keys' and values' entries in columns `o … o + 63`. -/
theorem headOut_apply (o : ℕ) (hq : S256x768.Slices ![0, o] S256x64) (hk : S2048x768.Slices ![0, o] S2048x64)
    (lane : Fin 64 → Fin 768) (hl : ∀ e, (lane e).val = o + e.val)
    (v6 : Vec Ideal S256x768 .bf16) (v7 : Vec Ideal S2048x768 .bf16) (v8 : Vec Ideal S2048x768 .bf16) (r : Fin 256) (e : Fin 64) :
    headOut o hq hk v6 v7 v8 (ix2 r e)
      = ctxOf (fun e' => v6 (ix2 r (lane e'))) (fun j e' => v7 (ix2 j (lane e'))) (fun j e' => v8 (ix2 j (lane e'))) e := by
  unfold headOut ctxOf
  rw [headFrom_apply]
  refine Finset.sum_congr rfl fun j _ => ?_
  rw [slice2_axis1_apply o v8 hk j e (lane e) (hl e)]
  simp only [headExp_apply o hq hk lane hl v6 v7]

end Head

/-- Head `h` at an index: its columns are the entries `Attn.hd h ·`. -/
theorem heads_apply (v6 : Vec Ideal S256x768 .bf16) (v7 v8 : Vec Ideal S2048x768 .bf16) (h : Fin 12) (r : Fin 256) (e : Fin 64) :
    heads v6 v7 v8 h (ix2 r e)
      = ctxOf (fun e' => v6 (ix2 r (Attn.hd h e'))) (fun j e' => v7 (ix2 j (Attn.hd h e')))
          (fun j e' => v8 (ix2 j (Attn.hd h e'))) e :=
  headOut_apply (h.val * 64) (slQ h) (slK h) (Attn.hd h) (fun _ => rfl) v6 v7 v8 r e

/-- THE PROJECTED ROW AT AN INDEX: the block's entry `(u, r, d)` is the sum over the 768 columns `c` of the row of heads
    — head `c / 64`, its entry `c % 64` — times the output weight's entry `(d, c)`, plus the bias at `d`. -/
theorem tailOut_apply (hs : Fin 12 → FVec Ideal S256x64 .f32) (v239 : Vec Ideal S768x768 .bf16) (v242 : Vec Ideal S768 .f32)
    (u : Fin 1) (r : Fin 256) (d : Fin 768) :
    tailOut hs v239 v242 (ix3 u r d)
      = (∑ c : Fin 768, hs (Attn.headOf c) (ix2 r (Attn.inHead c)) * v239 (ix2 d c)) + v242 (ix1 d) := by
  unfold tailOut
  rw [shapeCast_ab_1ab_apply, addf_apply, mmOut_apply, broadcastTo_1b_ab_apply, shapeCast_a_1a_apply]
  refine congrArg (· + v242 (ix1 d)) (Finset.sum_congr rfl fun c _ => ?_)
  rw [truncf_apply, shapeCast_self]
  refine congrArg (· * v239 (ix2 d c)) ?_
  show concatenate S256x768 1 (List.ofFn fun n : Fin 12 => (⟨S256x64, hs n⟩ : (s : Shape) × (s.Idx → Ideal .f32))) _ (ix2 r c) = _
  exact concatenate_ofFn_apply (t := S256x768) (s₁ := S256x64) (1 : Fin 2) hs _ rfl 64 rfl (ix2 r c) (Attn.headOf c) rfl (ix2 r (Attn.inHead c)) rfl
    (fun b hb => by
      match b with
      | ⟨0, _⟩ => rfl
      | ⟨1, _⟩ => exact absurd rfl hb)

end Attn.K

end
-- ==== Proof.KProj.lean ====
/-
  The kernel's three projections, read at an index on the extended reals: the block of 2048 input rows (its leading
  axis of size one dropped; the change of format is the identity) times the g-th block of 768 rows of the stacked weight,
  contracted over the 768 entries of a row, is at (row n, entry r) the sum over c of the input at (0, n, c) times the
  weight at (768 g + r, c), for g = 0, 1, 2.
-/
import proofs.«132277_j6124623364158_2_alg».proof.Proof.Gen.KernelIdeal.Skeleton
import proofs.«132277_j6124623364158_2_alg».proof.Proof.KOps
import proofs.«132277_j6124623364158_2_alg».proof.Proof.Spec
import Idealize.ShloMosaic.Lib.ValueLayout
import Idealize.ShloMosaic.Lib.Pipeline.Value

noncomputable section

open scoped BigOperators

namespace Attn.K

open Cert.KernelIdeal Cert.KernelIdeal.Gen Idealize.ShloMosaic Idealize.ShloMosaic.ValueIdx

/-- The input block as a matrix: row n, entry c is the block at (0, n, c). -/
theorem pay2_apply (x0 : Vec Ideal S1x2048x768 .f32) (n : Fin 2048) (c : Fin 768) :
    k0_pay2 x0 (ix2 n c) = x0 (ix3 (0 : Fin 1) n c) := by
  show shapeCast S2048x768 x0 shapeCasts_S1x2048x768_S2048x768 (ix2 n c) = _
  exact shapeCast_1ab_ab_apply x0 shapeCasts_S1x2048x768_S2048x768 n c

/-- The stacked weight is read as it is. -/
theorem pay3_eq (x1 : Vec Ideal S2304x768 .bf16) : k0_pay3 x1 = x1 := by
  show shapeCast S2304x768 x1 shapeCasts_S2304x768_S2304x768 = x1
  exact shapeCast_self x1 shapeCasts_S2304x768_S2304x768

/-- The queries: the input rows against weight rows 0 … 767. -/
theorem pay4_apply (x0 : Vec Ideal S1x2048x768 .f32) (x1 : Vec Ideal S2304x768 .bf16) (n : Fin 2048) (r : Fin 768) :
    k0_pay4 x0 x1 (ix2 n r) = ∑ c : Fin 768, x0 (ix3 (0 : Fin 1) n c) * x1 (ix2 (Attn.wrow 0 r) c) := by
  show shapeCast S2048x768 (truncf .bf16 (matmul dot_S2048x768_S768x768_S2048x768_1_1_0_0_n_n none (k0_pay2 x0)
      (extractStridedSlice S768x768 ![0, 0] (k0_pay3 x1) slices_S2304x768_o0_0_S768x768)
      (constant S2048x768 .f32 0x00000000#32)) bitsLt_bf16_f32) shapeCasts_S2048x768_S2048x768 (ix2 n r) = _
  rw [shapeCast_self]
  show matmul dot_S2048x768_S768x768_S2048x768_1_1_0_0_n_n none (k0_pay2 x0)
      (extractStridedSlice S768x768 ![0, 0] (k0_pay3 x1) slices_S2304x768_o0_0_S768x768)
      (constant S2048x768 .f32 0x00000000#32) (ix2 n r) = _
  rw [mmProj_apply]
  refine Finset.sum_congr rfl fun c _ => ?_
  rw [pay2_apply, slice2_axis0_apply 0 (k0_pay3 x1) slices_S2304x768_o0_0_S768x768 r c (Attn.wrow 0 r)
    (by show 0 * 768 + r.val = 0 + r.val; omega), pay3_eq]

/-- The keys: the input rows against weight rows 768 … 1535. -/
theorem pay5_apply (x0 : Vec Ideal S1x2048x768 .f32) (x1 : Vec Ideal S2304x768 .bf16) (n : Fin 2048) (r : Fin 768) :
    k0_pay5 x0 x1 (ix2 n r) = ∑ c : Fin 768, x0 (ix3 (0 : Fin 1) n c) * x1 (ix2 (Attn.wrow 1 r) c) := by
  show shapeCast S2048x768 (truncf .bf16 (matmul dot_S2048x768_S768x768_S2048x768_1_1_0_0_n_n none (k0_pay2 x0)
      (extractStridedSlice S768x768 ![768, 0] (k0_pay3 x1) slices_S2304x768_o768_0_S768x768)
      (constant S2048x768 .f32 0x00000000#32)) bitsLt_bf16_f32) shapeCasts_S2048x768_S2048x768 (ix2 n r) = _
  rw [shapeCast_self]
  show matmul dot_S2048x768_S768x768_S2048x768_1_1_0_0_n_n none (k0_pay2 x0)
      (extractStridedSlice S768x768 ![768, 0] (k0_pay3 x1) slices_S2304x768_o768_0_S768x768)
      (constant S2048x768 .f32 0x00000000#32) (ix2 n r) = _
  rw [mmProj_apply]
  refine Finset.sum_congr rfl fun c _ => ?_
  rw [pay2_apply, slice2_axis0_apply 768 (k0_pay3 x1) slices_S2304x768_o768_0_S768x768 r c (Attn.wrow 1 r)
    (by show 1 * 768 + r.val = 768 + r.val; omega), pay3_eq]

/-- The values: the input rows against weight rows 1536 … 2303. -/
theorem pay6_apply (x0 : Vec Ideal S1x2048x768 .f32) (x1 : Vec Ideal S2304x768 .bf16) (n : Fin 2048) (r : Fin 768) :
    k0_pay6 x0 x1 (ix2 n r) = ∑ c : Fin 768, x0 (ix3 (0 : Fin 1) n c) * x1 (ix2 (Attn.wrow 2 r) c) := by
  show shapeCast S2048x768 (truncf .bf16 (matmul dot_S2048x768_S768x768_S2048x768_1_1_0_0_n_n none (k0_pay2 x0)
      (extractStridedSlice S768x768 ![1536, 0] (k0_pay3 x1) slices_S2304x768_o1536_0_S768x768)
      (constant S2048x768 .f32 0x00000000#32)) bitsLt_bf16_f32) shapeCasts_S2048x768_S2048x768 (ix2 n r) = _
  rw [shapeCast_self]
  show matmul dot_S2048x768_S768x768_S2048x768_1_1_0_0_n_n none (k0_pay2 x0)
      (extractStridedSlice S768x768 ![1536, 0] (k0_pay3 x1) slices_S2304x768_o1536_0_S768x768)
      (constant S2048x768 .f32 0x00000000#32) (ix2 n r) = _
  rw [mmProj_apply]
  refine Finset.sum_congr rfl fun c _ => ?_
  rw [pay2_apply, slice2_axis0_apply 1536 (k0_pay3 x1) slices_S2304x768_o1536_0_S768x768 r c (Attn.wrow 2 r)
    (by show 2 * 768 + r.val = 1536 + r.val; omega), pay3_eq]

end Attn.K

end
-- ==== Proof.KWindows.lean ====
/-
  The kernel's four input windows, read at an index in terms of the memory the program is launched on. Over the grid
  of 4 × 8 points, point t has first coordinate t / 8: window 0 holds the 2048 rows of batch t / 8 of the input;
  windows 1 and 2 hold the whole stacked weight and the whole output weight, each after the change of format done
  before the kernel starts, which on the extended reals is the identity; window 3 holds the whole bias.
-/
import proofs.«132277_j6124623364158_2_alg».proof.Proof.Gen.KernelIdeal.Frame
import Idealize.ShloMosaic.Lib.Pipeline.Value
import Idealize.ShloMosaic.Lib.StableHlo.Run
import Idealize.ShloMosaic.Lib.ValueIdx

noncomputable section

namespace Attn.K

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (c : Dev nD)

/-! ## The block each window stages at a point, decided once over the grid -/

theorem index0 : ∀ t : Fin cfg0.N, win0_0.index t (0 : Fin 3) = t.val / 8 ∧ win0_0.index t (1 : Fin 3) = 0 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 1) = 0 :=
  (by decide +kernel : ∀ t : Fin grid0.N, _)

/-! ## The two arrays converted before the kernel starts -/

/-- The stacked weight as the kernel finds it: the launched one, its format changed. -/
theorem V_main_v0 : @Eq (FVec Ideal S2304x768 .bf16) (V m c main_v0) (truncf .bf16 (m ((c : Thread nD τ).loc main_arg1)) bitsLt_bf16_f32) := by
  dsimp only [Gen.V, Gen.hostOps0]; after_results

/-- The output weight as the kernel finds it: the launched one, its format changed. -/
theorem V_main_v1 : @Eq (FVec Ideal S768x768 .bf16) (V m c main_v1) (truncf .bf16 (m ((c : Thread nD τ).loc main_arg2)) bitsLt_bf16_f32) := by
  dsimp only [Gen.V, Gen.hostOps0]; after_results

/-! ## The windows' blocks at an index -/

/-- Window 0 at point t: the rows of batch t / 8. -/
theorem iblk0_apply (t : Fin cfg0.N) (u : Fin 1) (n : Fin 2048) (k : Fin 768) (b : Fin 4) (hb : b.val = t.val / 8) :
    iblk m c 0 t (ix3 u n k) = m ((c : Thread nD τ).loc main_arg0) (ix3 b n k) := by
  obtain ⟨e0, e1, e2⟩ := index0 t
  have hu := u.isLt
  unfold iblk
  rw [View.read_apply]
  show V m c main_arg0 (((cfg0.win 0).blk t).view.emb (ix3 u n k)) = _
  rw [V_main_arg0]
  congr 1
  funext a; apply Fin.ext
  match a with
  | ⟨0, _⟩ => show win0_0.index t (0 : Fin 3) * 1 + 1 * u.val = b.val; omega
  | ⟨1, _⟩ => show win0_0.index t (1 : Fin 3) * 2048 + 1 * n.val = n.val; omega
  | ⟨2, _⟩ => show win0_0.index t (2 : Fin 3) * 768 + 1 * k.val = k.val; omega

/-- Window 1 at any point: the whole stacked weight as launched. -/
theorem iblk1_apply (t : Fin cfg0.N) (r : Fin 2304) (k : Fin 768) :
    iblk m c 1 t (ix2 r k) = m ((c : Thread nD τ).loc main_arg1) (ix2 r k) := by
  obtain ⟨e0, e1⟩ := index1 t
  unfold iblk
  rw [View.read_apply]
  show V m c main_v0 (((cfg0.win 1).blk t).view.emb (ix2 r k)) = _
  rw [V_main_v0]
  show m ((c : Thread nD τ).loc main_arg1) (((cfg0.win 1).blk t).view.emb (ix2 r k)) = _
  congr 1
  funext a; apply Fin.ext
  match a with
  | ⟨0, _⟩ => show win0_1.index t (0 : Fin 2) * 2304 + 1 * r.val = r.val; omega
  | ⟨1, _⟩ => show win0_1.index t (1 : Fin 2) * 768 + 1 * k.val = k.val; omega

/-- Window 2 at any point: the whole output weight as launched. -/
theorem iblk2_apply (t : Fin cfg0.N) (d k : Fin 768) :
    iblk m c 2 t (ix2 d k) = m ((c : Thread nD τ).loc main_arg2) (ix2 d k) := by
  obtain ⟨e0, e1⟩ := index2 t
  unfold iblk
  rw [View.read_apply]
  show V m c main_v1 (((cfg0.win 2).blk t).view.emb (ix2 d k)) = _
  rw [V_main_v1]
  show m ((c : Thread nD τ).loc main_arg2) (((cfg0.win 2).blk t).view.emb (ix2 d k)) = _
  congr 1
  funext a; apply Fin.ext
  match a with
  | ⟨0, _⟩ => show win0_2.index t (0 : Fin 2) * 768 + 1 * d.val = d.val; omega
  | ⟨1, _⟩ => show win0_2.index t (1 : Fin 2) * 768 + 1 * k.val = k.val; omega

/-- Window 3 at any point: the whole bias as launched. -/
theorem iblk3_apply (t : Fin cfg0.N) (d : Fin 768) :
    iblk m c 3 t (ix1 d) = m ((c : Thread nD τ).loc main_arg3) (ix1 d) := by
  have e0 := index3 t
  unfold iblk
  rw [View.read_apply]
  show V m c main_arg3 (((cfg0.win 3).blk t).view.emb (ix1 d)) = _
  rw [V_main_arg3]
  congr 1
  funext a; apply Fin.ext
  match a with
  | ⟨0, _⟩ => show win0_3.index t (0 : Fin 1) * 768 + 1 * d.val = d.val; omega

end Attn.K

end
-- ==== Proof.KValue.lean ====
/-
  One grid point's output block, entry by entry, is the attention layer's result.

  Point n works on batch b = n / 8 and on query rows 256 (n % 8) … 256 (n % 8) + 255. Its block's entry (u, r, d) is the
  projected row of the twelve heads of query row 256 (n % 8) + r: the buffers hold the batch's queries, keys and values,
  which read at an index are the specification's projections of the batch's rows; a head read at an index is the
  specification's context of that row in that head; and the projected row plus bias is the specification's result.
-/
import proofs.«132277_j6124623364158_2_alg».proof.Proof.KScratch
import proofs.«132277_j6124623364158_2_alg».proof.Proof.KBody
import proofs.«132277_j6124623364158_2_alg».proof.Proof.KHeadRead
import proofs.«132277_j6124623364158_2_alg».proof.Proof.KProj
import proofs.«132277_j6124623364158_2_alg».proof.Proof.KWindows

set_option maxRecDepth 16384

noncomputable section

open scoped BigOperators
open Idealize.ShloMosaic Idealize.ShloMosaic.TcCoe Idealize.SL.Sem Idealize.ShloMosaic.ValueIdx

namespace Attn.K

open Cert.KernelIdeal Cert.KernelIdeal.Gen

variable (m : (ℓ : Loc nD τ sig) → Buf (Elt Ideal) ℓ) (c : Dev nD)

/-- The four argument arrays as the launch finds them. -/
abbrev argX : (⟨3, ![4, 2048, 768]⟩ : Shape).Idx → EReal := m ((c : Thread nD τ).loc main_arg0)
abbrev argW : (⟨2, ![2304, 768]⟩ : Shape).Idx → EReal := m ((c : Thread nD τ).loc main_arg1)
abbrev argWp : (⟨2, ![768, 768]⟩ : Shape).Idx → EReal := m ((c : Thread nD τ).loc main_arg2)
abbrev argB : (⟨1, ![768]⟩ : Shape).Idx → EReal := m ((c : Thread nD τ).loc main_arg3)

/-- The grid's coordinates of point `t`: batch `t / 8`, row tile `t % 8`. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The query rows of a point are rows `256 i₁ + r` of the query buffer. -/
theorem qrows_apply {F : FTy → Type} [FloatOps F] (i : grid0.Coords) (Q : Vec F S2048x768 .bf16) (r : Fin 256) (k : Fin 768)
    (n : Fin 2048) (hn : n.val = 256 * (i 1).val + r.val) : qrows i Q (ix2 r k) = Q (ix2 n k) := by
  unfold qrows
  show Q _ = Q _
  refine congrArg Q (funext fun a => Fin.ext ?_)
  match a with
  | ⟨0, _⟩ =>
    show k0_off1 i 0 + 1 * r.val = n.val
    rw [k0_off1_eq i]
    show 256 * (i 1).val + 1 * r.val = n.val
    omega
  | ⟨1, _⟩ =>
    show k0_off1 i 1 + 1 * k.val = k.val
    rw [k0_off1_eq i]
    show 0 + 1 * k.val = k.val
    omega

theorem first_div (n : ℕ) (h : n < cfg0.N) : (first n h).val / 8 = n / 8 := by
  show 8 * (n / 8) / 8 = n / 8
  omega

/-- The buffers' contents at an index are the specification's projections of the batch's rows. -/
theorem Qof_apply (n : ℕ) (h : n < cfg0.N) (b : Fin 4) (hb : b.val = n / 8) (r : Fin 2048) (k : Fin 768) :
    Qof m c n h (ix2 r k) = Attn.proj (argX m c) (argW m c) 0 b r k := by
  unfold Qof Attn.proj
  rw [pay4_apply]
  refine Finset.sum_congr rfl fun cc _ => ?_
  rw [iblk0_apply m c (first n h) 0 r cc b (hb.trans (first_div n h).symm), iblk1_apply]

theorem Kof_apply (n : ℕ) (h : n < cfg0.N) (b : Fin 4) (hb : b.val = n / 8) (r : Fin 2048) (k : Fin 768) :
    Kof m c n h (ix2 r k) = Attn.proj (argX m c) (argW m c) 1 b r k := by
  unfold Kof Attn.proj
  rw [pay5_apply]
  refine Finset.sum_congr rfl fun cc _ => ?_
  rw [iblk0_apply m c (first n h) 0 r cc b (hb.trans (first_div n h).symm), iblk1_apply]

theorem Vof_apply (n : ℕ) (h : n < cfg0.N) (b : Fin 4) (hb : b.val = n / 8) (r : Fin 2048) (k : Fin 768) :
    Vof m c n h (ix2 r k) = Attn.proj (argX m c) (argW m c) 2 b r k := by
  unfold Vof Attn.proj
  rw [pay6_apply]
  refine Finset.sum_congr rfl fun cc _ => ?_
  rw [iblk0_apply m c (first n h) 0 r cc b (hb.trans (first_div n h).symm), iblk1_apply]

/-- A head's result over the specification's projections is the specification's context. -/
theorem ctxOf_proj (x : (⟨3, ![4, 2048, 768]⟩ : Shape).Idx → EReal) (w : (⟨2, ![2304, 768]⟩ : Shape).Idx → EReal)
    (b : Fin 4) (hh : Fin 12) (row : Fin 2048) (e : Fin 64) :
    ctxOf (fun e' => Attn.proj x w 0 b row (Attn.hd hh e')) (fun j e' => Attn.proj x w 1 b j (Attn.hd hh e'))
      (fun j e' => Attn.proj x w 2 b j (Attn.hd hh e')) e = Attn.ctx x w b hh row e := rfl

/-- THE BLOCK OF POINT `n`, ENTRY BY ENTRY. -/
theorem block_value (n : ℕ) (h : n < cfg0.N) (b : Fin 4) (hb : b.val = n / 8) (u : Fin 1) (r : Fin 256) (d : Fin 768)
    (row : Fin 2048) (hrow : row.val = 256 * (n % 8) + r.val) :
    (outsAt0 m c n h).1 (ix3 u r d) = Attn.out (argX m c) (argW m c) (argWp m c) (argB m c) (ix3 b row d) := by
  rw [outBlock_eq, bodyOut_eq, tailOut_apply]
  unfold Attn.out
  rw [iblk3_apply]
  refine congrArg (· + argB m c (ix1 d)) (Finset.sum_congr rfl fun cc _ => ?_)
  rw [iblk2_apply, heads_apply]
  refine congrArg (· * argWp m c (ix2 d cc)) ?_
  have hq : ∀ e', qrows (grid0.coords ⟨n, h⟩) (Qof m c n h) (ix2 r (Attn.hd (Attn.headOf cc) e'))
      = Attn.proj (argX m c) (argW m c) 0 b row (Attn.hd (Attn.headOf cc) e') := fun e' => by
    rw [qrows_apply (grid0.coords ⟨n, h⟩) (Qof m c n h) r _ row (by rw [(coords_val ⟨n, h⟩).2]; exact hrow), Qof_apply m c n h b hb]
  simp only [hq, Kof_apply m c n h b hb, Vof_apply m c n h b hb]
  exact ctxOf_proj _ _ b (Attn.headOf cc) row (Attn.inHead cc)

/-- The same for any index of the block. -/
theorem block_value' (n : ℕ) (h : n < cfg0.N) (y : (⟨3, ![1, 256, 768]⟩ : Shape).Idx) (b : Fin 4) (hb : b.val = n / 8)
    (row : Fin 2048) (hrow : row.val = 256 * (n % 8) + (y 1).val) :
    (outsAt0 m c n h).1 y = Attn.out (argX m c) (argW m c) (argWp m c) (argB m c) (ix3 b row (y 2)) :=
  (congrArg (outsAt0 m c n h).1 (eq_ix3 y)).trans (block_value m c n h b hb (y 0) (y 1) (y 2) row hrow)

end Attn.K

end
-- ==== Proof.KBlock.lean ====
/-
  The kernel's result array after the run is the attention layer's result.

  Point t writes back the 1 × 256 × 768 block at block index (t / 8, t % 8, 0) of the 4 × 2048 × 768 result array, so the
  block's entry (u, r, d) lands at array index (t / 8, 256 (t % 8) + r, d) — where the entry is the specification's value at
  that very index. The 32 blocks cover the array (the point covering (b, n, ·) is 8 b + n / 256), so the array ends
  holding the specification's result everywhere.
-/
import proofs.«132277_j6124623364158_2_alg».proof.Proof.KValue
import proofs.«132277_j6124623364158_2_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)

namespace Attn.K

open Cert.KernelIdeal Cert.KernelIdeal.Gen

variable (m : (ℓ : Loc nD τ sig) → Buf (Elt Ideal) ℓ) (ρ : Dev nD → PrngReg)

/-- The attention layer's result of the argument arrays as launched, as contents of the result array. -/
abbrev result (c : Dev nD) : Buf (Elt Ideal) ((c : Thread nD τ).loc main_v2) :=
  Attn.out (argX m c) (argW m c) (argWp m c) (argB m c)

/-- The output window's block index at point `t`. -/
theorem index4 : ∀ t : Fin cfg0.N, win0_4.index t (0 : Fin 3) = t.val / 8 ∧ win0_4.index t (1 : Fin 3) = t.val % 8
    ∧ win0_4.index t (2 : Fin 3) = 0 :=
  (by decide +kernel : ∀ t : Fin grid0.N, win0_4.index t (0 : Fin 3) = t.val / 8 ∧ win0_4.index t (1 : Fin 3) = t.val % 8
    ∧ win0_4.index t (2 : Fin 3) = 0)

/-- WHAT POINT `t` WRITES BACK is block `t` of the result. -/
theorem flushed_eq (c : Dev nD) (t : Fin cfg0.N) :
    (dats m 0 c).flushed 4 t = ((cfg0.win 4).blk t).view.read (Elt Ideal) (result m c) := by
  rw [Cert.KernelIdeal.Value.flushed4]
  obtain ⟨e0, e1, e2⟩ := index4 t
  have hN : t.val < 32 := lt_of_lt_of_eq t.isLt N32
  funext y
  have h0 : (y 0).val < 1 := (y 0).isLt
  have h1 : (y 1).val < 256 := (y 1).isLt
  have h2 : (y 2).val < 768 := (y 2).isLt
  show (outsAt0 m c t.val t.isLt).1 y = result m c (((cfg0.win 4).blk t).view.emb y)
  refine (block_value' m c t.val t.isLt y ⟨t.val / 8, by omega⟩ rfl ⟨256 * (t.val % 8) + (y 1).val, by omega⟩ rfl).trans ?_
  refine congrArg (result m c) (funext fun a => Fin.ext ?_)
  match a with
  | ⟨0, _⟩ => show t.val / 8 = win0_4.index t (0 : Fin 3) * 1 + 1 * (y 0).val; omega
  | ⟨1, _⟩ => show 256 * (t.val % 8) + (y 1).val = win0_4.index t (1 : Fin 3) * 256 + 1 * (y 1).val; omega
  | ⟨2, _⟩ => show (y 2).val = win0_4.index t (2 : Fin 3) * 768 + 1 * (y 2).val; omega

/-- An index of the array is in point `t`'s block iff each coordinate is in the block's range on its axis. -/
theorem mem_blk (t : Fin cfg0.N) (i : S4x2048x768.Idx) :
    i ∈ ((cfg0.win 4).blk t).view.set ↔ ∀ a : Fin 3, win0_4.index t a * S1x256x768.size a ≤ (i a).val
      ∧ (i a).val < win0_4.index t a * S1x256x768.size a + S1x256x768.size a := by
  show i ∈ ((View.whole main_v2).slice (win0_4.rect t)).set ↔ _
  rw [View.set_slice_whole, Rect.mem_set_unit]
  exact Iff.rfl

/-- Every index of the array is in some point's block. -/
theorem cover (i : S4x2048x768.Idx) :
    ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 768 := (i 2).isLt
  have hN : cfg0.N = 32 := N32
  have ht : 8 * (i 0).val + (i 1).val / 256 < cfg0.N := by omega
  obtain ⟨e0, e1, e2⟩ := index4 ⟨8 * (i 0).val + (i 1).val / 256, ht⟩
  refine ⟨⟨8 * (i 0).val + (i 1).val / 256, ht⟩, flush0_4 _, ?_⟩
  rw [mem_blk]
  intro a
  match a with
  | ⟨0, _⟩ =>
    show win0_4.index ⟨8 * (i 0).val + (i 1).val / 256, ht⟩ (0 : Fin 3) * 1 ≤ (i 0).val
      ∧ (i 0).val < win0_4.index ⟨8 * (i 0).val + (i 1).val / 256, ht⟩ (0 : Fin 3) * 1 + 1
    rw [e0]; show (8 * (i 0).val + (i 1).val / 256) / 8 * 1 ≤ (i 0).val ∧ (i 0).val < (8 * (i 0).val + (i 1).val / 256) / 8 * 1 + 1
    omega
  | ⟨1, _⟩ =>
    show win0_4.index ⟨8 * (i 0).val + (i 1).val / 256, ht⟩ (1 : Fin 3) * 256 ≤ (i 1).val
      ∧ (i 1).val < win0_4.index ⟨8 * (i 0).val + (i 1).val / 256, ht⟩ (1 : Fin 3) * 256 + 256
    rw [e1]; show (8 * (i 0).val + (i 1).val / 256) % 8 * 256 ≤ (i 1).val ∧ (i 1).val < (8 * (i 0).val + (i 1).val / 256) % 8 * 256 + 256
    omega
  | ⟨2, _⟩ =>
    show win0_4.index ⟨8 * (i 0).val + (i 1).val / 256, ht⟩ (2 : Fin 3) * 768 ≤ (i 2).val
      ∧ (i 2).val < win0_4.index ⟨8 * (i 0).val + (i 1).val / 256, ht⟩ (2 : Fin 3) * 768 + 768
    rw [e2]; omega

/-- So the result array ends holding the attention layer's result. -/
theorem final (c : Dev nD) : (dats m 0 c).arrAt 4 cfg0.N = result m c :=
  (dats m 0 c).arrAt_eq_of_cover 4 (result m c) (fun t _ => flushed_eq m c t) cover

/-- THE KERNEL'S RUN, READ: the result array at the attention layer's result of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Attn.K

end
-- ==== Proof.RefProj.lean ====
/-
  The reference's first stages, read at explicit coordinates: the stacked projection of the input, regrouped as
  (batch, row, block, head, entry), transposed to (block, batch, head, row, entry) and cut into its three blocks, is at
  (batch b, head h, row n, entry e) the specification's query, key or value entry 64 h + e of row n of batch b.
-/
import proofs.«132277_j6124623364158_2_alg».proof.Proof.Gen.ReferenceIdeal.Read
import proofs.«132277_j6124623364158_2_alg».proof.Proof.Spec
import Idealize.ShloMosaic.Lib.ValueIdx

noncomputable section

open scoped BigOperators

namespace Attn.Ref

open Cert.ReferenceIdeal Cert.ReferenceIdeal.Gen Cert.ReferenceIdeal.Read Idealize.ShloMosaic Idealize.ShloMosaic.ValueIdx

variable (x0 : (⟨S4x2048x768, .f32⟩ : BufTy).Contents (Elt Ideal)) (x1 : (⟨S2304x768, .f32⟩ : BufTy).Contents (Elt Ideal))

/-! ## Where each layout stage reads -/

/-- Regrouping 2304 columns as (3, 12, 64): column of (block g, head h, entry e) is row 768 g + 64 h + e of the weight. -/
theorem idx_v1 (b : Fin 4) (n : Fin 2048) (g : Fin 3) (h : Fin 12) (e : Fin 64) :
    idx_main_v1 (ix5 b n g h e) = ix3 b n (Attn.wrow g (Attn.hd h e)) := by
  have hb := b.isLt; have hn := n.isLt; have hg := g.isLt; have hh := h.isLt; have he := e.isLt
  funext a; refine Fin.ext ?_
  match a with
  | ⟨0, _⟩ => show (((((b.val * 2048 + n.val) * 3 + g.val) * 12 + h.val) * 64 + e.val) / 4718592) = b.val; omega
  | ⟨1, _⟩ => show (((((b.val * 2048 + n.val) * 3 + g.val) * 12 + h.val) * 64 + e.val) / 2304 % 2048) = n.val; omega
  | ⟨2, _⟩ => show (((((b.val * 2048 + n.val) * 3 + g.val) * 12 + h.val) * 64 + e.val) % 2304) = g.val * 768 + (h.val * 64 + e.val); omega

/-- The transposition to (block, batch, head, row, entry). -/
theorem idx_v2 (g : Fin 3) (b : Fin 4) (h : Fin 12) (n : Fin 2048) (e : Fin 64) :
    idx_main_v2 (ix5 g b h n e) = ix5 b n g h e := by
  funext a; refine Fin.ext ?_
  match a with
  | ⟨0, _⟩ => rfl
  | ⟨1, _⟩ => rfl
  | ⟨2, _⟩ => rfl
  | ⟨3, _⟩ => rfl
  | ⟨4, _⟩ => rfl

/-- The three cuts along the block axis. -/
theorem idx_v3 (z : Fin 1) (b : Fin 4) (h : Fin 12) (n : Fin 2048) (e : Fin 64) :
    idx_main_v3 (ix5 z b h n e) = ix5 (0 : Fin 3) b h n e := by
  have hz := z.isLt
  funext a; refine Fin.ext ?_
  match a with
  | ⟨0, _⟩ => show z.val = 0; omega
  | ⟨1, _⟩ => rfl
  | ⟨2, _⟩ => rfl
  | ⟨3, _⟩ => rfl
  | ⟨4, _⟩ => rfl
theorem idx_v5 (z : Fin 1) (b : Fin 4) (h : Fin 12) (n : Fin 2048) (e : Fin 64) :
    idx_main_v5 (ix5 z b h n e) = ix5 (1 : Fin 3) b h n e := by
  have hz := z.isLt
  funext a; refine Fin.ext ?_
  match a with
  | ⟨0, _⟩ => show 1 + z.val = 1; omega
  | ⟨1, _⟩ => rfl
  | ⟨2, _⟩ => rfl
  | ⟨3, _⟩ => rfl
  | ⟨4, _⟩ => rfl
theorem idx_v7 (z : Fin 1) (b : Fin 4) (h : Fin 12) (n : Fin 2048) (e : Fin 64) :
    idx_main_v7 (ix5 z b h n e) = ix5 (2 : Fin 3) b h n e := by
  have hz := z.isLt
  funext a; refine Fin.ext ?_
  match a with
  | ⟨0, _⟩ => show 2 + z.val = 2; omega
  | ⟨1, _⟩ => rfl
  | ⟨2, _⟩ => rfl
  | ⟨3, _⟩ => rfl
  | ⟨4, _⟩ => rfl

/-- Dropping the block axis of size one. -/
theorem idx_v4 (b : Fin 4) (h : Fin 12) (n : Fin 2048) (e : Fin 64) :
    idx_main_v4 (ix4 b h n e) = ix5 (0 : Fin 1) b h n e := by
  have hb := b.isLt; have hh := h.isLt; have hn := n.isLt; have he := e.isLt
  funext a; refine Fin.ext ?_
  match a with
  | ⟨0, _⟩ => rfl
  | ⟨1, _⟩ => show ((((b.val * 12 + h.val) * 2048 + n.val) * 64 + e.val) / 1572864 % 4) = b.val; omega
  | ⟨2, _⟩ => show ((((b.val * 12 + h.val) * 2048 + n.val) * 64 + e.val) / 131072 % 12) = h.val; omega
  | ⟨3, _⟩ => show ((((b.val * 12 + h.val) * 2048 + n.val) * 64 + e.val) / 64 % 2048) = n.val; omega
  | ⟨4, _⟩ => show ((((b.val * 12 + h.val) * 2048 + n.val) * 64 + e.val) % 64) = e.val; omega
theorem idx_v6 (b : Fin 4) (h : Fin 12) (n : Fin 2048) (e : Fin 64) :
    idx_main_v6 (ix4 b h n e) = ix5 (0 : Fin 1) b h n e := idx_v4 b h n e
theorem idx_v8 (b : Fin 4) (h : Fin 12) (n : Fin 2048) (e : Fin 64) :
    idx_main_v8 (ix4 b h n e) = ix5 (0 : Fin 1) b h n e := idx_v4 b h n e

/-! ## The stages' values -/

/-- The regrouped projection at (batch, row, block, head, entry). -/
theorem v1_at (b : Fin 4) (n : Fin 2048) (g : Fin 3) (h : Fin 12) (e : Fin 64) :
    val_main_v1 (F := Ideal) x0 x1 (ix5 b n g h e) = Attn.proj x0 x1 g b n (Attn.hd h e) := by
  rw [val_main_v1_apply, idx_v1, val_main_v0_apply]
  unfold Attn.proj
  refine Finset.sum_congr rfl fun c _ => ?_
  have el : lidx_main_v0 (ix3 b n (Attn.wrow g (Attn.hd h e))) c = ix3 b n c :=
    funext fun a => Fin.ext (by match a with | ⟨0, _⟩ => rfl | ⟨1, _⟩ => rfl | ⟨2, _⟩ => rfl)
  have er : ridx_main_v0 (ix3 b n (Attn.wrow g (Attn.hd h e))) c = ix2 (Attn.wrow g (Attn.hd h e)) c :=
    funext fun a => Fin.ext (by match a with | ⟨0, _⟩ => rfl | ⟨1, _⟩ => rfl)
  rw [el, er]

/-- The transposed projection at (block, batch, head, row, entry). -/
theorem v2_at (g : Fin 3) (b : Fin 4) (h : Fin 12) (n : Fin 2048) (e : Fin 64) :
    val_main_v2 (F := Ideal) x0 x1 (ix5 g b h n e) = Attn.proj x0 x1 g b n (Attn.hd h e) := by
  rw [val_main_v2_apply, idx_v2, v1_at]

/-- The queries, before scaling. -/
theorem v4_at (b : Fin 4) (h : Fin 12) (n : Fin 2048) (e : Fin 64) :
    val_main_v4 (F := Ideal) x0 x1 (ix4 b h n e) = Attn.proj x0 x1 0 b n (Attn.hd h e) := by
  rw [val_main_v4_apply, idx_v4, val_main_v3_apply, idx_v3, v2_at]

/-- The keys. -/
theorem v6_at (b : Fin 4) (h : Fin 12) (n : Fin 2048) (e : Fin 64) :
    val_main_v6 (F := Ideal) x0 x1 (ix4 b h n e) = Attn.proj x0 x1 1 b n (Attn.hd h e) := by
  rw [val_main_v6_apply, idx_v6, val_main_v5_apply, idx_v5, v2_at]

/-- The values. -/
theorem v8_at (b : Fin 4) (h : Fin 12) (n : Fin 2048) (e : Fin 64) :
    val_main_v8 (F := Ideal) x0 x1 (ix4 b h n e) = Attn.proj x0 x1 2 b n (Attn.hd h e) := by
  rw [val_main_v8_apply, idx_v8, val_main_v7_apply, idx_v7, v2_at]

end Attn.Ref

end
-- ==== Proof.RefScore.lean ====
/-
  The reference's scores, read at explicit coordinates: the scaled queries contracted with the keys over the 64 entries
  of a head are, at (batch b, head h, query row n, key row j), the specification's score.
-/
import proofs.«132277_j6124623364158_2_alg».proof.Proof.RefProj

noncomputable section

open scoped BigOperators

namespace Attn.Ref

open Cert.ReferenceIdeal Cert.ReferenceIdeal.Gen Cert.ReferenceIdeal.Read Idealize.ShloMosaic Idealize.ShloMosaic.ValueIdx

variable (x0 : (⟨S4x2048x768, .f32⟩ : BufTy).Contents (Elt Ideal)) (x1 : (⟨S2304x768, .f32⟩ : BufTy).Contents (Elt Ideal))

/-- The splat of the scale word reads the word everywhere. -/
theorem v9_at (i : S4x12x2048x64.Idx) : val_main_v9 (F := Ideal) i = Attn.scale := by
  rw [val_main_v9_apply, val_main_cst_apply]
  rfl

/-- The scaled queries. -/
theorem v10_at (b : Fin 4) (h : Fin 12) (n : Fin 2048) (e : Fin 64) :
    val_main_v10 (F := Ideal) x0 x1 (ix4 b h n e) = Attn.proj x0 x1 0 b n (Attn.hd h e) * Attn.scale := by
  rw [val_main_v10_apply, v4_at, v9_at]
  rfl

/-- The scores. -/
theorem v11_at (b : Fin 4) (h : Fin 12) (n j : Fin 2048) :
    val_main_v11 (F := Ideal) x0 x1 (ix4 b h n j) = Attn.score x0 x1 b h n j := by
  rw [val_main_v11_apply]
  unfold Attn.score
  refine Finset.sum_congr rfl fun e _ => ?_
  have el : lidx_main_v11 (ix4 b h n j) e = ix4 b h n e :=
    funext fun a => Fin.ext (by match a with | ⟨0, _⟩ => rfl | ⟨1, _⟩ => rfl | ⟨2, _⟩ => rfl | ⟨3, _⟩ => rfl)
  have er : ridx_main_v11 (ix4 b h n j) e = ix4 b h j e :=
    funext fun a => Fin.ext (by match a with | ⟨0, _⟩ => rfl | ⟨1, _⟩ => rfl | ⟨2, _⟩ => rfl | ⟨3, _⟩ => rfl)
  rw [el, er, v10_at, v6_at]

end Attn.Ref

end
-- ==== Proof.RefSoftmax.lean ====
/-
  The reference's softmax, read at explicit coordinates: the row maximum (a maximum-reduce started from the word of −∞,
  then once more the maximum with that word), the exponentials of the shifted scores, their row sums (started from the
  word of zero) and the quotients are, at (batch b, head h, query row n[, key row j]), the specification's rowMax, expo,
  the sum of expo, and prob.
-/
import proofs.«132277_j6124623364158_2_alg».proof.Proof.RefScore
import Idealize.ShloMosaic.PureOps.Ideal.Laws

noncomputable section

open scoped BigOperators

namespace Attn.Ref

open Cert.ReferenceIdeal Cert.ReferenceIdeal.Gen Cert.ReferenceIdeal.Read Idealize.ShloMosaic Idealize.ShloMosaic.ValueIdx

variable (x0 : (⟨S4x2048x768, .f32⟩ : BufTy).Contents (Elt Ideal)) (x1 : (⟨S2304x768, .f32⟩ : BufTy).Contents (Elt Ideal))

/-- Dropping the last axis of (4, 12, 2048, 2048) leaves (4, 12, 2048). -/
theorem red : S4x12x2048x2048.Reduces [3] S4x12x2048 := by decide

/-- The index over (b, h, n) with coordinate k on the dropped axis. -/
theorem lift_at (b : Fin 4) (h : Fin 12) (n : Fin 2048) (k : Fin 2048) :
    red.lift (ix3 b h n) k = ix4 b h n k :=
  funext fun a => Fin.ext (by match a with | ⟨0, _⟩ => rfl | ⟨1, _⟩ => rfl | ⟨2, _⟩ => rfl | ⟨3, _⟩ => rfl)

/-- The maximum-reduce of the scores along the key rows: the fold of max from the starting word. -/
theorem v12_at (b : Fin 4) (h : Fin 12) (n : Fin 2048) :
    val_main_v12 (F := Ideal) x0 x1 (ix3 b h n) = Attn.rowMax x0 x1 b h n := by
  unfold val_main_v12
  rw [Host.reduce_eq_fold_single (FloatOps.maximumf (F := Ideal) (φ := .f32)) (val_main_v11 (F := Ideal) x0 x1)
    (val_main_cst_0 (F := Ideal)) reducesTo_S4x12x2048x2048_S4x12x2048_d3 red h_S_ (ix3 b h n)]
  have key : ∀ k : Fin 2048, val_main_v11 (F := Ideal) x0 x1 (red.lift (ix3 b h n) k) = Attn.score x0 x1 b h n k :=
    fun k => by rw [lift_at, v11_at]
  unfold Attn.rowMax
  rw [val_main_cst_0_apply]
  exact Finset.fold_congr fun k _ => key k

/-- The row maximum: the maximum of the starting word and a fold of max that starts from it is that fold. -/
theorem v14_at (b : Fin 4) (h : Fin 12) (n : Fin 2048) :
    val_main_v14 (F := Ideal) x0 x1 (ix3 b h n) = Attn.rowMax x0 x1 b h n := by
  rw [val_main_v14_apply, val_main_v13_apply, val_main_cst_1_apply, v12_at]
  show max Attn.negInf (Attn.rowMax x0 x1 b h n) = Attn.rowMax x0 x1 b h n
  exact max_eq_right ((Finset.le_fold_max _).2 (Or.inl le_rfl))

/-- The row maximum spread along the key rows. -/
theorem v16_at (b : Fin 4) (h : Fin 12) (n j : Fin 2048) :
    val_main_v16 (F := Ideal) x0 x1 (ix4 b h n j) = Attn.rowMax x0 x1 b h n := by
  have e : idx_main_v15 (idx_main_v16 (ix4 b h n j)) = ix3 b h n :=
    funext fun a => Fin.ext (by match a with | ⟨0, _⟩ => rfl | ⟨1, _⟩ => rfl | ⟨2, _⟩ => rfl)
  rw [val_main_v16_apply, val_main_v15_apply, e, v14_at]

/-- The exponentials of the shifted scores. -/
theorem v18_at (b : Fin 4) (h : Fin 12) (n j : Fin 2048) :
    val_main_v18 (F := Ideal) x0 x1 (ix4 b h n j) = Attn.expo x0 x1 b h n j := by
  rw [val_main_v18_apply, val_main_v17_apply, v11_at, v16_at]
  rfl

/-- The row sums: the word of zero is 0. -/
theorem v19_at (b : Fin 4) (h : Fin 12) (n : Fin 2048) :
    val_main_v19 (F := Ideal) x0 x1 (ix3 b h n) = ∑ j : Fin 2048, Attn.expo x0 x1 b h n j := by
  rw [val_main_v19_apply, val_main_cst_2_apply, Ideal.ofBits_def, Ideal.ofBits_zero_f32, zero_add]
  refine Finset.sum_congr rfl fun j _ => ?_
  have e : idx_main_v19 (ix3 b h n) j = ix4 b h n j :=
    funext fun a => Fin.ext (by match a with | ⟨0, _⟩ => rfl | ⟨1, _⟩ => rfl | ⟨2, _⟩ => rfl | ⟨3, _⟩ => rfl)
  rw [e, v18_at]

/-- The row sums spread along the key rows. -/
theorem v21_at (b : Fin 4) (h : Fin 12) (n j : Fin 2048) :
    val_main_v21 (F := Ideal) x0 x1 (ix4 b h n j) = ∑ j' : Fin 2048, Attn.expo x0 x1 b h n j' := by
  have e : idx_main_v20 (idx_main_v21 (ix4 b h n j)) = ix3 b h n :=
    funext fun a => Fin.ext (by match a with | ⟨0, _⟩ => rfl | ⟨1, _⟩ => rfl | ⟨2, _⟩ => rfl)
  rw [val_main_v21_apply, val_main_v20_apply, e, v19_at]

/-- The softmax weights. -/
theorem v22_at (b : Fin 4) (h : Fin 12) (n j : Fin 2048) :
    val_main_v22 (F := Ideal) x0 x1 (ix4 b h n j) = Attn.prob x0 x1 b h n j := by
  rw [val_main_v22_apply, v18_at, v21_at]
  rfl

end Attn.Ref

end
-- ==== Proof.RefValue.lean ====
/-
  The reference's last stages and its result: the softmax weights contracted with the values are the specification's
  context; transposed to (batch, row, head, entry) and flattened to 768 columns, column c holds entry c mod 64 of head
  c div 64; the output projection plus the bias is the specification's result.
-/
import proofs.«132277_j6124623364158_2_alg».proof.Proof.RefSoftmax

noncomputable section

open scoped BigOperators

namespace Attn.Ref

open Cert.ReferenceIdeal Cert.ReferenceIdeal.Gen Cert.ReferenceIdeal.Read Idealize.ShloMosaic Idealize.ShloMosaic.ValueIdx

variable (x0 : (⟨S4x2048x768, .f32⟩ : BufTy).Contents (Elt Ideal)) (x1 : (⟨S2304x768, .f32⟩ : BufTy).Contents (Elt Ideal))

/-- The contexts. -/
theorem v23_at (b : Fin 4) (h : Fin 12) (n : Fin 2048) (e : Fin 64) :
    val_main_v23 (F := Ideal) x0 x1 (ix4 b h n e) = Attn.ctx x0 x1 b h n e := by
  rw [val_main_v23_apply]
  unfold Attn.ctx
  refine Finset.sum_congr rfl fun j _ => ?_
  have el : lidx_main_v23 (ix4 b h n e) j = ix4 b h n j :=
    funext fun a => Fin.ext (by match a with | ⟨0, _⟩ => rfl | ⟨1, _⟩ => rfl | ⟨2, _⟩ => rfl | ⟨3, _⟩ => rfl)
  have er : ridx_main_v23 (ix4 b h n e) j = ix4 b h j e :=
    funext fun a => Fin.ext (by match a with | ⟨0, _⟩ => rfl | ⟨1, _⟩ => rfl | ⟨2, _⟩ => rfl | ⟨3, _⟩ => rfl)
  rw [el, er, v22_at, v8_at]

/-- Flattening (12, 64) to 768 after the transposition: column c is (head c / 64, entry c % 64). -/
theorem idx_v25 (b : Fin 4) (n : Fin 2048) (c : Fin 768) :
    idx_main_v24 (idx_main_v25 (ix3 b n c)) = ix4 b (Attn.headOf c) n (Attn.inHead c) := by
  have hb := b.isLt; have hn := n.isLt; have hc := c.isLt
  funext a; refine Fin.ext ?_
  match a with
  | ⟨0, _⟩ => show ((b.val * 2048 + n.val) * 768 + c.val) / 1572864 = b.val; omega
  | ⟨1, _⟩ => show ((b.val * 2048 + n.val) * 768 + c.val) / 64 % 12 = c.val / 64; omega
  | ⟨2, _⟩ => show ((b.val * 2048 + n.val) * 768 + c.val) / 768 % 2048 = n.val; omega
  | ⟨3, _⟩ => show ((b.val * 2048 + n.val) * 768 + c.val) % 64 = c.val % 64; omega

/-- The contexts side by side. -/
theorem v25_at (b : Fin 4) (n : Fin 2048) (c : Fin 768) :
    val_main_v25 (F := Ideal) x0 x1 (ix3 b n c) = Attn.ctx x0 x1 b (Attn.headOf c) n (Attn.inHead c) := by
  rw [val_main_v25_apply, val_main_v24_apply, idx_v25, v23_at]

/-- THE REFERENCE'S RESULT IS THE SPECIFICATION. -/
theorem ref_eq_out (x0 : (⟨S4x2048x768, .f32⟩ : BufTy).Contents (Elt Ideal)) (x1 : (⟨S2304x768, .f32⟩ : BufTy).Contents (Elt Ideal))
    (x2 : (⟨S768x768, .f32⟩ : BufTy).Contents (Elt Ideal)) (x3 : (⟨S768, .f32⟩ : BufTy).Contents (Elt Ideal)) :
    val_main_v29 (F := Ideal) x0 x1 x2 x3 = Attn.out x0 x1 x2 x3 := by
  funext i
  obtain ⟨b, n, d, rfl⟩ : ∃ (b : Fin 4) (n : Fin 2048) (d : Fin 768), i = ix3 b n d := ⟨i 0, i 1, i 2, eq_ix3 i⟩
  rw [val_main_v29_apply, val_main_v26_apply, val_main_v28_apply, val_main_v27_apply]
  have eb : idx_main_v27 (idx_main_v28 (ix3 b n d)) = ix1 d :=
    funext fun a => Fin.ext (by match a with | ⟨0, _⟩ => rfl)
  rw [eb]
  show (∑ c : Fin 768, val_main_v25 (F := Ideal) x0 x1 (lidx_main_v26 (ix3 b n d) c) * x2 (ridx_main_v26 (ix3 b n d) c)) + x3 (ix1 d)
    = (∑ c : Fin 768, Attn.ctx x0 x1 b (Attn.headOf c) n (Attn.inHead c) * x2 (ix2 d c)) + x3 (ix1 d)
  refine congrArg (· + x3 (ix1 d)) (Finset.sum_congr rfl fun c _ => ?_)
  have el : lidx_main_v26 (ix3 b n d) c = ix3 b n c :=
    funext fun a => Fin.ext (by match a with | ⟨0, _⟩ => rfl | ⟨1, _⟩ => rfl | ⟨2, _⟩ => rfl)
  have er : ridx_main_v26 (ix3 b n d) c = ix2 d c :=
    funext fun a => Fin.ext (by match a with | ⟨0, _⟩ => rfl | ⟨1, _⟩ => rfl)
  rw [el, er, v25_at]

end Attn.Ref

end
-- ==== Proof.lean ====
/-
  The kernel and the reference compute the same function.

  The kernel is multi-head self-attention with an output projection on 4 batches of 2048 rows of 768 entries, 12 heads
  of 64: per batch it projects all rows to queries, keys and values once, keeps them, and then, 256 query rows at a
  time, forms for each head the scores against all 2048 keys, the softmax weights (scores shifted by their row maximum,
  exponentiated, divided by their row sum), the weighted sum of the values, puts the twelve heads side by side, applies
  the output weight and adds the bias. The reference does the same on whole arrays. Read on the extended reals, where a
  change of float format is the identity and every operation is exact, both are the one function `Attn.out` of the four
  argument arrays, index by index: the two sides perform the same operations in the same order on the same entries
  (sums over the same index sets, the same factor 1/8, the same shift by the maximum), so no algebraic law beyond the
  re-indexing of the arrays is used, and the inputs' finiteness is not needed.

  The three frames are the generated runs; the idealization rewrote nothing, so it is preserved trivially; the kernel's
  value is `Attn.K.run` (the blocks the 32 grid points write back, covering the result array), the reference's value is
  its generated run read stage by stage (`Attn.Ref.ref_eq_out`).
-/
import proofs.«132277_j6124623364158_2_alg».proof.Defs
import proofs.«132277_j6124623364158_2_alg».proof.Proof.Gen.Kernel
import proofs.«132277_j6124623364158_2_alg».proof.Proof.Gen.Kernel.Skeleton
import proofs.«132277_j6124623364158_2_alg».proof.Proof.Gen.Kernel.Launch
import proofs.«132277_j6124623364158_2_alg».proof.Proof.Gen.Kernel.Points
import proofs.«132277_j6124623364158_2_alg».proof.Proof.Gen.Kernel.Frame
import proofs.«132277_j6124623364158_2_alg».proof.Proof.Gen.KernelIdeal
import proofs.«132277_j6124623364158_2_alg».proof.Proof.Gen.KernelIdeal.Skeleton
import proofs.«132277_j6124623364158_2_alg».proof.Proof.Gen.KernelIdeal.Launch
import proofs.«132277_j6124623364158_2_alg».proof.Proof.Gen.KernelIdeal.Points
import proofs.«132277_j6124623364158_2_alg».proof.Proof.Gen.KernelIdeal.Frame
import proofs.«132277_j6124623364158_2_alg».proof.Proof.Gen.ReferenceIdeal
import proofs.«132277_j6124623364158_2_alg».proof.Proof.Gen.KernelIdeal.Value
import proofs.«132277_j6124623364158_2_alg».proof.Proof.Gen.ReferenceIdeal.Run
import proofs.«132277_j6124623364158_2_alg».proof.Proof.Gen.ReferenceIdeal.Read
import proofs.«132277_j6124623364158_2_alg».proof.Proof.Gen.Pre_finite_inputs
import proofs.«132277_j6124623364158_2_alg».proof.Proof.KBlock
import proofs.«132277_j6124623364158_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- So does the reference: its generated run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- On the extended reals the kernel's result array and the reference's are the attention layer's result of arguments
    that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Attn.K.result m c, Attn.K.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Attn.Ref.ref_eq_out, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
